-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000x128, .f32⟩
  | .hbm, ⟨36, _⟩ => ⟨S_, .f32⟩
  | .hbm, ⟨37, _⟩ => ⟨S50000x128, .f32⟩
  | .hbm, ⟨38, _⟩ => ⟨S850000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S_, .f32⟩
  | .hbm, ⟨52, _⟩ => ⟨S50000x128, .f32⟩
  | .hbm, ⟨53, _⟩ => ⟨S850000x1, .i32⟩
  | .hbm, ⟨54, _⟩ => ⟨S50000x128, .f32⟩
  | .hbm, ⟨55, _⟩ => ⟨S128x128, .f32⟩
  | .hbm, ⟨56, _⟩ => ⟨S128, .f32⟩
  | .hbm, ⟨57, _⟩ => ⟨S1x128, .f32⟩
  | .hbm, ⟨58, _⟩ => ⟨S50000x128, .f32⟩
  | .hbm, ⟨59, _⟩ => ⟨S50000x64, .f32⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S50000x128_S50000x64_0_0 : S50000x128.Slices ![0, 0] S50000x64
  slices_S50000x128_S50000x64_0_64 : S50000x128.Slices ![0, 64] S50000x64
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x64, .f32⟩
  | .hbm, ⟨97, _⟩ => ⟨S850000x1, .f32⟩
  | .hbm, ⟨98, _⟩ => ⟨S850000x64, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its two results named: every fair execution ends with each result buffer holding what
  the fold of the program's segments (host stretches and the three grid regions, in order) leaves there, and with the
  arguments as launched.
-/
import proofs.«142467_j24335284699606_2_alg».proof.Proof.Gen.KernelIdeal.Frame

-- membership in a rectangle of full-size extents (`View.cover_of_tiled`) is unfolded once per coordinate of the
-- long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_values : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_v43) = W7 m ρ c (Proc.devRef .tc main_v43)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)), h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Gen

end
-- ==== Proof.Payloads.lean ====
/-
  The three grid bodies' arithmetic read at an element of a block, at the ideal values. A block product
  into the zero accumulator is the plain sum over the contracted coordinate, a column broadcast along
  the rows reads the row's entry, a row broadcast down the rows reads the column's entry, and rounding
  to a narrower format is the identity. So the first body stores (Σ_k A[p,k] B[k,q]) · s[p], the second
  max(a[p,q] · s[p] + b[q], 0) · s[p], the third Σ_k (a[p,k] · s[p]) W[k,q] + b[q].
-/
import proofs.«142467_j24335284699606_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Idealize.ShloMosaic Idealize.ShloMosaic.ValueIdx

/-- A column `[a, 1]` broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the block product: its row coordinate is the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's index of the block product: its column coordinate is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into the zero accumulator, read at `(p, q)`: the sum over the contracted
    coordinate `k` of `A (p, k) * B (k, q)`. -/
theorem matmul_zero_apply {φ₁ φ₂ : FTy} (A : FVec Ideal S5000x128 φ₁) (B : FVec Ideal S128x128 φ₂)
    (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  refine (Ideal.matmul_constant_zero_apply dot_S5000x128_S128x128_S5000x128_1_0_0_1_n_n none A B (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The first kernel's stored value at `(p, q)`: rounding to the narrower format is the identity on the
    ideal values, the block product into the zero accumulator is the plain sum over the contracted
    coordinate, and the column `v5` is broadcast along the row. -/
theorem k0_pay1_apply (v0 : Vec Ideal S5000x128 .f32) (v2 : Vec Ideal S128x128 .f32) (v5 : Vec Ideal S5000x1 .f32)
    (p : Fin 5000) (q : Fin 128) :
    Gen.k0_pay1 (F := Ideal) v0 v2 v5 (ix2 p q)
      = (∑ k : Fin 128, v0 (ix2 p k) * v2 (ix2 k q)) * v5 (ix2 p (0 : Fin 1)) := by
  unfold Gen.k0_pay1
  rw [mulf_apply, matmul_zero_apply, shapeCast_self, broadcastTo_a1_ab_apply]
  rfl

/-- The second kernel's stored value at `(p, q)`: scale by the row's factor, add the bias row, clamp
    below at zero, scale by the row's factor again. -/
theorem k1_pay1_apply (v0 : Vec Ideal S5000x1 .f32) (v2 : Vec Ideal S5000x128 .f32) (v6 : Vec Ideal S1x128 .f32)
    (p : Fin 5000) (q : Fin 128) :
    Gen.k1_pay1 (F := Ideal) v0 v2 v6 (ix2 p q)
      = max (v2 (ix2 p q) * v0 (ix2 p (0 : Fin 1)) + v6 (ix2 (0 : Fin 1) q)) 0 * v0 (ix2 p (0 : Fin 1)) := by
  unfold Gen.k1_pay1
  rw [mulf_apply, maximumf_apply, addf_apply, mulf_apply, broadcast_apply]
  simp only [shapeCast_self]
  rw [broadcastTo_a1_ab_apply, broadcastTo_1b_ab_apply]
  show max _ (Ideal.ofBits .f32 0x00000000#32) * _ = _
  rw [Ideal.ofBits_zero_f32]

/-- The third kernel's stored value at `(p, q)`: the rows of `v0` scaled by the row's factor, times the
    matrix `v7`, plus the bias row. -/
theorem k2_pay1_apply (v0 : Vec Ideal S5000x128 .f32) (v2 : Vec Ideal S5000x1 .f32) (v7 : Vec Ideal S128x128 .f32)
    (v11 : Vec Ideal S1x128 .f32) (p : Fin 5000) (q : Fin 128) :
    Gen.k2_pay1 (F := Ideal) v0 v2 v7 v11 (ix2 p q)
      = (∑ k : Fin 128, (v0 (ix2 p k) * v2 (ix2 p (0 : Fin 1))) * v7 (ix2 k q)) + v11 (ix2 (0 : Fin 1) q) := by
  unfold Gen.k2_pay1
  rw [addf_apply, matmul_zero_apply]
  simp only [shapeCast_self]
  rw [broadcastTo_1b_ab_apply]
  refine congrArg (· + v11 (ix2 (0 : Fin 1) q)) (Finset.sum_congr rfl fun k _ => ?_)
  rw [truncf_apply, truncf_apply, mulf_apply, broadcastTo_a1_ab_apply]

end Cert.KernelIdeal.PayIdx
-- ==== Proof.KernelRegions.lean ====
/-
  Each of the three grid regions, as one whole-array function of the arrays it finds on entry.
  A region walks ten row blocks of 5000 rows; at block t the body reads rows 5000 t … 5000 t + 4999 of the row-blocked
  operands (and the whole weight / bias operand), and writes the same rows of the result. So the result array, once all
  ten blocks are written back, holds at row v and column j the body's arithmetic on row v of the operands:
  region 0: (Σ_k x[v,k] W[k,j]) · s[v];  region 1: max(a[v,j] · s[v] + b[j], 0) · s[v];
  region 2: Σ_k (a[v,k] · s[v]) W[k,j] + b[j].
-/
import proofs.«142467_j24335284699606_2_alg».proof.Proof.Gen.KernelIdeal.Frame
import proofs.«142467_j24335284699606_2_alg».proof.Proof.Payloads
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0: the dense transform with the per-row scale -/

/-- Row v, column j: the row of x against the column of W, times the row's scale. -/
def R0 (x : S50000x128.Idx → EReal) (W : S128x128.Idx → EReal) (dinv : S50000x1.Idx → EReal) : S50000x128.Idx → EReal :=
  fun i => (∑ k : Fin 128, (x (ix2 (i 0) k) * W (ix2 k (i 1)) : EReal)) * dinv (ix2 (i 0) 0)

theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ t.val < 10 :=
  (by decide +kernel : ∀ t : Fin grid0.N, _)

theorem iblk0_0_at (c : Dev nD) (t : Fin cfg0.N) (p : Fin 5000) (q : Fin 128) (k : S50000x128.Idx)
    (hk0 : (k 0).val = 5000 * t.val + p.val) (hk1 : (k 1).val = q.val) :
    (iblk0 V c 0 t : Vec Ideal S5000x128 .f32) (ix2 p q) = (V c main_arg0 : S50000x128.Idx → EReal) k := by
  obtain ⟨e0, e1, e2, e3, e4, e5, e6, e7, e8⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = (k 0).val; omega
  | ⟨1, _⟩ => show win0_0.index t (1 : Fin 2) * 128 + 1 * q.val = (k 1).val; omega

theorem iblk0_1_at (c : Dev nD) (t : Fin cfg0.N) (p : Fin 128) (q : Fin 128) (k : S128x128.Idx)
    (hk0 : (k 0).val = p.val) (hk1 : (k 1).val = q.val) :
    (iblk0 V c 1 t : Vec Ideal S128x128 .f32) (ix2 p q) = (V c main_arg2 : S128x128.Idx → EReal) k := by
  obtain ⟨e0, e1, e2, e3, e4, e5, e6, e7, e8⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * p.val = (k 0).val; omega
  | ⟨1, _⟩ => show win0_1.index t (1 : Fin 2) * 128 + 1 * q.val = (k 1).val; omega

theorem iblk0_2_at (c : Dev nD) (t : Fin cfg0.N) (p : Fin 5000) (q : Fin 1) (k : S50000x1.Idx)
    (hk0 : (k 0).val = 5000 * t.val + p.val) (hk1 : (k 1).val = q.val) :
    (iblk0 V c 2 t : Vec Ideal S5000x1 .f32) (ix2 p q) = (V c main_v14 : S50000x1.Idx → EReal) k := by
  obtain ⟨e0, e1, e2, e3, e4, e5, e6, e7, e8⟩ := idx_facts0 t
  unfold iblk0
  rw [View.read_apply]
  show V c main_v14 _ = V c main_v14 _
  congr 1
  funext a
  apply Fin.ext
  match a with
  | ⟨0, _⟩ => show win0_2.index t (0 : Fin 2) * 5000 + 1 * p.val = (k 0).val; omega
  | ⟨1, _⟩ => show win0_2.index t (1 : Fin 2) * 1 + 1 * q.val = (k 1).val; omega

/-- What grid point t writes back is block t of R0 of the arrays the region finds. -/
theorem flushed0_eq (c : Dev nD) (t : Fin cfg0.N) :
    (dat0 V c).flushed 3 t = ((cfg0.win 3).blk t).view.read (Elt Ideal) (R0 (V c main_arg0) (V c main_arg2) (V c main_v14)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7, e8⟩ := idx_facts0 t
  funext j
  show k0_pay1 (iblk0 V c 0 t) (iblk0 V c 1 t) (iblk0 V c 2 t) j = R0 (V c main_arg0) (V c main_arg2) (V c main_v14) (((cfg0.win 3).blk t).view.emb j)
  obtain ⟨p, q, rfl⟩ : ∃ (p : Fin 5000) (q : Fin 128), j = ix2 p q := ⟨j 0, j 1, eq_ix2 j⟩
  have hE0 : ((((cfg0.win 3).blk t).view.emb (ix2 p q)) 0).val = 5000 * t.val + p.val := by
    show win0_3.index t (0 : Fin 2) * 5000 + 1 * p.val = _; omega
  have hE1 : ((((cfg0.win 3).blk t).view.emb (ix2 p q)) 1).val = q.val := by
    show win0_3.index t (1 : Fin 2) * 128 + 1 * q.val = _; omega
  rw [PayIdx.k0_pay1_apply]
  unfold R0
  rw [iblk0_2_at V c t p 0 (ix2 ((((cfg0.win 3).blk t).view.emb (ix2 p q)) 0) 0) hE0 rfl]
  congr 1
  refine Finset.sum_congr rfl fun k _ => ?_
  rw [iblk0_0_at V c t p k (ix2 ((((cfg0.win 3).blk t).view.emb (ix2 p q)) 0) k) hE0 rfl,
    iblk0_1_at V c t k q (ix2 k ((((cfg0.win 3).blk t).view.emb (ix2 p q)) 1)) rfl hE1]

theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Every row of the array lies in the block of the grid point numbered by the row's quotient by 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  refine ⟨t, flush0_3 t, ?_⟩
  have hf := idx_facts0 t
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The region's result array is R0 of the arrays it finds. -/
theorem final0 (c : Dev nD) : (dat0 V c).arrAt 3 cfg0.N = R0 (V c main_arg0) (V c main_arg2) (V c main_v14) :=
  (dat0 V c).arrAt_eq_of_cover 3 _ (fun t _ => flushed0_eq V c t) cover0

/-! ## Region 1: the row scale, the bias, the positive part, the row scale again -/

def R1 (agg : S50000x128.Idx → EReal) (dinv : S50000x1.Idx → EReal) (b : S1x128.Idx → EReal) : S50000x128.Idx → EReal :=
  fun i => max (agg i * dinv (ix2 (i 0) 0) + b (ix2 0 (i 1))) 0 * dinv (ix2 (i 0) 0)

theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ t.val < 10 :=
  (by decide +kernel : ∀ t : Fin grid1.N, _)

theorem iblk1_0_at (c : Dev nD) (t : Fin cfg1.N) (p : Fin 5000) (q : Fin 128) (k : S50000x128.Idx)
    (hk0 : (k 0).val = 5000 * t.val + p.val) (hk1 : (k 1).val = q.val) :
    (iblk1 V c 0 t : Vec Ideal S5000x128 .f32) (ix2 p q) = (V c main_v25 : S50000x128.Idx → EReal) k := by
  obtain ⟨e0, e1, e2, e3, e4, e5, e6, e7, e8⟩ := idx_facts1 t
  unfold iblk1
  rw [View.read_apply]
  show V c main_v25 _ = V c main_v25 _
  congr 1
  funext a
  apply Fin.ext
  match a with
  | ⟨0, _⟩ => show win1_0.index t (0 : Fin 2) * 5000 + 1 * p.val = (k 0).val; omega
  | ⟨1, _⟩ => show win1_0.index t (1 : Fin 2) * 128 + 1 * q.val = (k 1).val; omega

theorem iblk1_1_at (c : Dev nD) (t : Fin cfg1.N) (p : Fin 5000) (q : Fin 1) (k : S50000x1.Idx)
    (hk0 : (k 0).val = 5000 * t.val + p.val) (hk1 : (k 1).val = q.val) :
    (iblk1 V c 1 t : Vec Ideal S5000x1 .f32) (ix2 p q) = (V c main_v14 : S50000x1.Idx → EReal) k := by
  obtain ⟨e0, e1, e2, e3, e4, e5, e6, e7, e8⟩ := idx_facts1 t
  unfold iblk1
  rw [View.read_apply]
  show V c main_v14 _ = V c main_v14 _
  congr 1
  funext a
  apply Fin.ext
  match a with
  | ⟨0, _⟩ => show win1_1.index t (0 : Fin 2) * 5000 + 1 * p.val = (k 0).val; omega
  | ⟨1, _⟩ => show win1_1.index t (1 : Fin 2) * 1 + 1 * q.val = (k 1).val; omega

theorem iblk1_2_at (c : Dev nD) (t : Fin cfg1.N) (p : Fin 1) (q : Fin 128) (k : S1x128.Idx)
    (hk0 : (k 0).val = p.val) (hk1 : (k 1).val = q.val) :
    (iblk1 V c 2 t : Vec Ideal S1x128 .f32) (ix2 p q) = (V c main_v26 : S1x128.Idx → EReal) k := by
  obtain ⟨e0, e1, e2, e3, e4, e5, e6, e7, e8⟩ := idx_facts1 t
  unfold iblk1
  rw [View.read_apply]
  show V c main_v26 _ = V c main_v26 _
  congr 1
  funext a
  apply Fin.ext
  match a with
  | ⟨0, _⟩ => show win1_2.index t (0 : Fin 2) * 1 + 1 * p.val = (k 0).val; omega
  | ⟨1, _⟩ => show win1_2.index t (1 : Fin 2) * 128 + 1 * q.val = (k 1).val; omega

theorem flushed1_eq (c : Dev nD) (t : Fin cfg1.N) :
    (dat1 V c).flushed 3 t = ((cfg1.win 3).blk t).view.read (Elt Ideal) (R1 (V c main_v25) (V c main_v14) (V c main_v26)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨e0, e1, e2, e3, e4, e5, e6, e7, e8⟩ := idx_facts1 t
  funext j
  show k1_pay1 (iblk1 V c 1 t) (iblk1 V c 0 t) (iblk1 V c 2 t) j = R1 (V c main_v25) (V c main_v14) (V c main_v26) (((cfg1.win 3).blk t).view.emb j)
  obtain ⟨p, q, rfl⟩ : ∃ (p : Fin 5000) (q : Fin 128), j = ix2 p q := ⟨j 0, j 1, eq_ix2 j⟩
  have hE0 : ((((cfg1.win 3).blk t).view.emb (ix2 p q)) 0).val = 5000 * t.val + p.val := by
    show win1_3.index t (0 : Fin 2) * 5000 + 1 * p.val = _; omega
  have hE1 : ((((cfg1.win 3).blk t).view.emb (ix2 p q)) 1).val = q.val := by
    show win1_3.index t (1 : Fin 2) * 128 + 1 * q.val = _; omega
  rw [PayIdx.k1_pay1_apply]
  unfold R1
  rw [iblk1_1_at V c t p 0 (ix2 ((((cfg1.win 3).blk t).view.emb (ix2 p q)) 0) 0) hE0 rfl,
    iblk1_0_at V c t p q (((cfg1.win 3).blk t).view.emb (ix2 p q)) hE0 hE1,
    iblk1_2_at V c t 0 q (ix2 0 ((((cfg1.win 3).blk t).view.emb (ix2 p q)) 1)) rfl hE1]

theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27).slice (win1_3.rect t)).set ↔ _
  rw [View.set_slice_whole, Rect.mem_set_unit]
  exact Iff.rfl

/-- Every row of the array lies in the block of the grid point numbered by the row's quotient by 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  refine ⟨t, flush1_3 t, ?_⟩
  have hf := idx_facts1 t
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

theorem final1 (c : Dev nD) : (dat1 V c).arrAt 3 cfg1.N = R1 (V c main_v25) (V c main_v14) (V c main_v26) :=
  (dat1 V c).arrAt_eq_of_cover 3 _ (fun t _ => flushed1_eq V c t) cover1

/-! ## Region 2: the row scale, the dense transform, the bias -/

def R2 (agg : S50000x128.Idx → EReal) (dinv : S50000x1.Idx → EReal) (W : S128x128.Idx → EReal) (b : S1x128.Idx → EReal) : S50000x128.Idx → EReal :=
  fun i => (∑ k : Fin 128, ((agg (ix2 (i 0) k) * dinv (ix2 (i 0) 0)) * W (ix2 k (i 1)) : EReal)) + b (ix2 0 (i 1))

theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ t.val < 10 :=
  (by decide +kernel : ∀ t : Fin grid2.N, _)

theorem iblk2_0_at (c : Dev nD) (t : Fin cfg2.N) (p : Fin 5000) (q : Fin 128) (k : S50000x128.Idx)
    (hk0 : (k 0).val = 5000 * t.val + p.val) (hk1 : (k 1).val = q.val) :
    (iblk2 V c 0 t : Vec Ideal S5000x128 .f32) (ix2 p q) = (V c main_v37 : S50000x128.Idx → EReal) k := by
  obtain ⟨e0, e1, e2, e3, e4, e5, e6, e7, e8, e9, e10⟩ := idx_facts2 t
  unfold iblk2
  rw [View.read_apply]
  show V c main_v37 _ = V c main_v37 _
  congr 1
  funext a
  apply Fin.ext
  match a with
  | ⟨0, _⟩ => show win2_0.index t (0 : Fin 2) * 5000 + 1 * p.val = (k 0).val; omega
  | ⟨1, _⟩ => show win2_0.index t (1 : Fin 2) * 128 + 1 * q.val = (k 1).val; omega

theorem iblk2_1_at (c : Dev nD) (t : Fin cfg2.N) (p : Fin 5000) (q : Fin 1) (k : S50000x1.Idx)
    (hk0 : (k 0).val = 5000 * t.val + p.val) (hk1 : (k 1).val = q.val) :
    (iblk2 V c 1 t : Vec Ideal S5000x1 .f32) (ix2 p q) = (V c main_v14 : S50000x1.Idx → EReal) k := by
  obtain ⟨e0, e1, e2, e3, e4, e5, e6, e7, e8, e9, e10⟩ := idx_facts2 t
  unfold iblk2
  rw [View.read_apply]
  show V c main_v14 _ = V c main_v14 _
  congr 1
  funext a
  apply Fin.ext
  match a with
  | ⟨0, _⟩ => show win2_1.index t (0 : Fin 2) * 5000 + 1 * p.val = (k 0).val; omega
  | ⟨1, _⟩ => show win2_1.index t (1 : Fin 2) * 1 + 1 * q.val = (k 1).val; omega

theorem iblk2_2_at (c : Dev nD) (t : Fin cfg2.N) (p : Fin 128) (q : Fin 128) (k : S128x128.Idx)
    (hk0 : (k 0).val = p.val) (hk1 : (k 1).val = q.val) :
    (iblk2 V c 2 t : Vec Ideal S128x128 .f32) (ix2 p q) = (V c main_v38 : S128x128.Idx → EReal) k := by
  obtain ⟨e0, e1, e2, e3, e4, e5, e6, e7, e8, e9, e10⟩ := idx_facts2 t
  unfold iblk2
  rw [View.read_apply]
  show V c main_v38 _ = V c main_v38 _
  congr 1
  funext a
  apply Fin.ext
  match a with
  | ⟨0, _⟩ => show win2_2.index t (0 : Fin 2) * 128 + 1 * p.val = (k 0).val; omega
  | ⟨1, _⟩ => show win2_2.index t (1 : Fin 2) * 128 + 1 * q.val = (k 1).val; omega

theorem iblk2_3_at (c : Dev nD) (t : Fin cfg2.N) (p : Fin 1) (q : Fin 128) (k : S1x128.Idx)
    (hk0 : (k 0).val = p.val) (hk1 : (k 1).val = q.val) :
    (iblk2 V c 3 t : Vec Ideal S1x128 .f32) (ix2 p q) = (V c main_v40 : S1x128.Idx → EReal) k := by
  obtain ⟨e0, e1, e2, e3, e4, e5, e6, e7, e8, e9, e10⟩ := idx_facts2 t
  unfold iblk2
  rw [View.read_apply]
  show V c main_v40 _ = V c main_v40 _
  congr 1
  funext a
  apply Fin.ext
  match a with
  | ⟨0, _⟩ => show win2_3.index t (0 : Fin 2) * 1 + 1 * p.val = (k 0).val; omega
  | ⟨1, _⟩ => show win2_3.index t (1 : Fin 2) * 128 + 1 * q.val = (k 1).val; omega

theorem flushed2_eq (c : Dev nD) (t : Fin cfg2.N) :
    (dat2 V c).flushed 4 t = ((cfg2.win 4).blk t).view.read (Elt Ideal) (R2 (V c main_v37) (V c main_v14) (V c main_v38) (V c main_v40)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S128x128) hz, View.ld_unit_zero (S := S1x128) hz]
  obtain ⟨e0, e1, e2, e3, e4, e5, e6, e7, e8, e9, e10⟩ := idx_facts2 t
  funext j
  show k2_pay1 (iblk2 V c 0 t) (iblk2 V c 1 t) (iblk2 V c 2 t) (iblk2 V c 3 t) j = R2 (V c main_v37) (V c main_v14) (V c main_v38) (V c main_v40) (((cfg2.win 4).blk t).view.emb j)
  obtain ⟨p, q, rfl⟩ : ∃ (p : Fin 5000) (q : Fin 128), j = ix2 p q := ⟨j 0, j 1, eq_ix2 j⟩
  have hE0 : ((((cfg2.win 4).blk t).view.emb (ix2 p q)) 0).val = 5000 * t.val + p.val := by
    show win2_4.index t (0 : Fin 2) * 5000 + 1 * p.val = _; omega
  have hE1 : ((((cfg2.win 4).blk t).view.emb (ix2 p q)) 1).val = q.val := by
    show win2_4.index t (1 : Fin 2) * 128 + 1 * q.val = _; omega
  rw [PayIdx.k2_pay1_apply]
  unfold R2
  rw [iblk2_3_at V c t 0 q (ix2 0 ((((cfg2.win 4).blk t).view.emb (ix2 p q)) 1)) rfl hE1,
    iblk2_1_at V c t p 0 (ix2 ((((cfg2.win 4).blk t).view.emb (ix2 p q)) 0) 0) hE0 rfl]
  congr 1
  refine Finset.sum_congr rfl fun k _ => ?_
  rw [iblk2_0_at V c t p k (ix2 ((((cfg2.win 4).blk t).view.emb (ix2 p q)) 0) k) hE0 rfl,
    iblk2_2_at V c t k q (ix2 k ((((cfg2.win 4).blk t).view.emb (ix2 p q)) 1)) rfl hE1]

theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v41).slice (win2_4.rect t)).set ↔ _
  rw [View.set_slice_whole, Rect.mem_set_unit]
  exact Iff.rfl

/-- Every row of the array lies in the block of the grid point numbered by the row's quotient by 5000. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have ht : t.val = (i 0).val / 5000 := rfl
  refine ⟨t, flush2_4 t, ?_⟩
  have hf := idx_facts2 t
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

theorem final2 (c : Dev nD) : (dat2 V c).arrAt 4 cfg2.N = R2 (V c main_v37) (V c main_v14) (V c main_v38) (V c main_v40) :=
  (dat2 V c).arrAt_eq_of_cover 4 _ (fun t _ => flushed2_eq V c t) cover2

end Cert.KernelIdeal.Regions
end
-- ==== Proof.KernelValue.lean ====
/-
  The idealized kernel's two results as functions of its arguments.
  The program is a fold of four host stretches and three grid regions. Reading the fold buffer by buffer:
  the first stretch computes the edge lists with self-loops (source and destination), and the per-node scale
  s = rsqrt(max(deg, 1)) as a column; region 0 leaves H0 = (x W1) · s row-wise; the next stretch gathers H0 at the
  sources and adds the gathered rows into their destinations (A1); region 1 leaves H2 = max(A1 · s + b1, 0) · s; the next
  stretch aggregates H2 the same way (A2) and joins the two head weights and biases side by side; region 2 leaves
  (A2 · s) Wcat + bcat; the last stretch cuts the left and right halves of its columns.
  The integer lists and the scale are the same operations on the same argument as in the reference program, so they are
  named here by the reference's stages.
-/
import proofs.«142467_j24335284699606_2_alg».proof.Proof.KernelRegions
import proofs.«142467_j24335284699606_2_alg».proof.Proof.Gen.ReferenceIdeal.Read
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KV

open Cert.KernelIdeal Cert.KernelIdeal.Gen Cert.KernelIdeal.Regions
open Cert.ReferenceIdeal (Read.val_main_v3 Read.val_main_v6 Read.val_main_v9 Read.val_main_v13 Read.val_main_v19)

variable (m : (ℓ : Loc nD τ sig) → Buf (Elt Ideal) ℓ) (ρ : Dev nD → PrngReg)

/-- The per-node scale as a column. -/
def scaleCol (a1 : IVec S2x800000 32) : S50000x1.Idx → EReal :=
  shapeCast S50000x1 (Cert.ReferenceIdeal.Read.val_main_v13 (F := Ideal) a1) shapeCasts_S50000_S50000x1

/-- One aggregation: gather the rows of X at the edges' sources, add each gathered row into its edge's destination row. -/
def agg (a1 : IVec S2x800000 32) (X : S50000x128.Idx → EReal) : S50000x128.Idx → EReal :=
  Host.scatterAdd (F := Ideal) scatter_S50000x128_S850000x1_S850000x128_1_0_0_1
    (broadcastInDim S50000x128 ![] bcast_S_S50000x128 (constant (F := Ideal) S_ .f32 0x00000000#32))
    (Cert.ReferenceIdeal.Read.val_main_v9 (F := Ideal) a1)
    (Host.gather gather_S50000x128_S850000x1_S850000x128_1_0_n_n_0_1_1128 X (Cert.ReferenceIdeal.Read.val_main_v19 (F := Ideal) a1))

/-! ## After the first host stretch -/

theorem W1_v3 (c : Dev nD) : W1 m ρ c (Proc.devRef .tc main_v3) = Cert.ReferenceIdeal.Read.val_main_v3 (F := Ideal) (m ((c : Thread nD τ).loc main_arg1)) := by
  dsimp only [W1, hostOps0]
  after_results
  rfl
theorem W1_v6 (c : Dev nD) : W1 m ρ c (Proc.devRef .tc main_v6) = Cert.ReferenceIdeal.Read.val_main_v6 (F := Ideal) (m ((c : Thread nD τ).loc main_arg1)) := by
  dsimp only [W1, hostOps0]
  after_results
  rfl
theorem W1_v14 (c : Dev nD) : W1 m ρ c (Proc.devRef .tc main_v14) = scaleCol (m ((c : Thread nD τ).loc main_arg1)) := by
  dsimp only [W1, hostOps0]
  after_results
  rfl
theorem W1_arg (c : Dev nD) : W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_, ?_, ?_, ?_⟩ <;> (dsimp only [W1, hostOps0]; after_results)

/-! ## After region 0 -/

theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v6 (c : Dev nD) : W2 m ρ c (Proc.devRef .tc main_v6) = Cert.ReferenceIdeal.Read.val_main_v6 (F := Ideal) (m ((c : Thread nD τ).loc main_arg1)) :=
  (W2_of_ne m ρ c main_v6 (by decide)).trans (W1_v6 m ρ c)
theorem W2_v14 (c : Dev nD) : W2 m ρ c (Proc.devRef .tc main_v14) = scaleCol (m ((c : Thread nD τ).loc main_arg1)) :=
  (W2_arr m ρ c 2).trans (((dat0 (V1 m ρ) c).arrAt_in 2 rfl _).trans ((A_eq0 (V1 m ρ) c 2).trans (W1_v14 m ρ c)))
theorem W2_v15 (c : Dev nD) : W2 m ρ c (Proc.devRef .tc main_v15) = R0 (m ((c : Thread nD τ).loc main_arg0)) (m ((c : Thread nD τ).loc main_arg2)) (scaleCol (m ((c : Thread nD τ).loc main_arg1))) := by
  refine (W2_arr m ρ c 3).trans ((final0 (V1 m ρ) c).trans ?_)
  show R0 (W1 m ρ c (Proc.devRef .tc main_arg0)) (W1 m ρ c (Proc.devRef .tc main_arg2)) (W1 m ρ c (Proc.devRef .tc main_v14)) = _
  rw [(W1_arg m ρ c).1, (W1_arg m ρ c).2.1, W1_v14]
theorem W2_arg (c : Dev nD) : W2 m ρ c (Proc.devRef .tc main_arg3) = (m ((c : Thread nD τ).loc main_arg3))
    ∧ W2 m ρ c (Proc.devRef .tc main_arg4) = (m ((c : Thread nD τ).loc main_arg4))
    ∧ W2 m ρ c (Proc.devRef .tc main_arg5) = (m ((c : Thread nD τ).loc main_arg5))
    ∧ W2 m ρ c (Proc.devRef .tc main_arg6) = (m ((c : Thread nD τ).loc main_arg6))
    ∧ W2 m ρ c (Proc.devRef .tc main_arg7) = (m ((c : Thread nD τ).loc main_arg7)) :=
  ⟨(W2_of_ne m ρ c main_arg3 (by decide)).trans (W1_arg m ρ c).2.2.1,
   (W2_of_ne m ρ c main_arg4 (by decide)).trans (W1_arg m ρ c).2.2.2.1,
   (W2_of_ne m ρ c main_arg5 (by decide)).trans (W1_arg m ρ c).2.2.2.2.1,
   (W2_of_ne m ρ c main_arg6 (by decide)).trans (W1_arg m ρ c).2.2.2.2.2.1,
   (W2_of_ne m ρ c main_arg7 (by decide)).trans (W1_arg m ρ c).2.2.2.2.2.2⟩

/-! ## After the second host stretch -/

/-- The first hidden array before the region's scaling: H0 aggregated. -/
def A1 (a0 : S50000x128.Idx → EReal) (a1 : IVec S2x800000 32) (a2 : S128x128.Idx → EReal) : S50000x128.Idx → EReal :=
  agg a1 (R0 a0 a2 (scaleCol a1))

theorem W3_v25 (c : Dev nD) : W3 m ρ c (Proc.devRef .tc main_v25) = A1 (m ((c : Thread nD τ).loc main_arg0)) (m ((c : Thread nD τ).loc main_arg1)) (m ((c : Thread nD τ).loc main_arg2)) := by
  dsimp only [W3, hostOps1]
  after_results
  rw [W2_v6, W2_v15, W2_v3]
  rfl
theorem W3_v26 (c : Dev nD) : W3 m ρ c (Proc.devRef .tc main_v26) = shapeCast S1x128 (m ((c : Thread nD τ).loc main_arg3)) shapeCasts_S128_S1x128 := by
  dsimp only [W3, hostOps1]
  after_results
  rw [(W2_arg m ρ c).1]
  rfl
theorem W3_v14 (c : Dev nD) : W3 m ρ c (Proc.devRef .tc main_v14) = scaleCol (m ((c : Thread nD τ).loc main_arg1)) := by
  dsimp only [W3, hostOps1]
  after_results
  exact W2_v14 m ρ c
theorem W3_v3 (c : Dev nD) : W3 m ρ c (Proc.devRef .tc main_v3) = Cert.ReferenceIdeal.Read.val_main_v3 (F := Ideal) (m ((c : Thread nD τ).loc main_arg1)) := by
  dsimp only [W3, hostOps1]
  after_results
  exact W2_v3 m ρ c
theorem W3_v6 (c : Dev nD) : W3 m ρ c (Proc.devRef .tc main_v6) = Cert.ReferenceIdeal.Read.val_main_v6 (F := Ideal) (m ((c : Thread nD τ).loc main_arg1)) := by
  dsimp only [W3, hostOps1]
  after_results
  exact W2_v6 m ρ c
theorem W3_arg (c : Dev nD) : W3 m ρ c (Proc.devRef .tc main_arg4) = (m ((c : Thread nD τ).loc main_arg4))
    ∧ W3 m ρ c (Proc.devRef .tc main_arg5) = (m ((c : Thread nD τ).loc main_arg5))
    ∧ W3 m ρ c (Proc.devRef .tc main_arg6) = (m ((c : Thread nD τ).loc main_arg6))
    ∧ W3 m ρ c (Proc.devRef .tc main_arg7) = (m ((c : Thread nD τ).loc main_arg7)) := by
  refine ⟨?_, ?_, ?_, ?_⟩ <;> (dsimp only [W3, hostOps1]; after_results)
  · exact (W2_arg m ρ c).2.1
  · exact (W2_arg m ρ c).2.2.1
  · exact (W2_arg m ρ c).2.2.2.1
  · exact (W2_arg m ρ c).2.2.2.2

/-! ## After region 1 -/

def H2 (a0 : S50000x128.Idx → EReal) (a1 : IVec S2x800000 32) (a2 : S128x128.Idx → EReal) (a3 : S128.Idx → EReal) : S50000x128.Idx → EReal :=
  R1 (A1 a0 a1 a2) (scaleCol a1) (shapeCast S1x128 a3 shapeCasts_S128_S1x128)

theorem W4_v27 (c : Dev nD) : W4 m ρ c (Proc.devRef .tc main_v27) = H2 (m ((c : Thread nD τ).loc main_arg0)) (m ((c : Thread nD τ).loc main_arg1)) (m ((c : Thread nD τ).loc main_arg2)) (m ((c : Thread nD τ).loc main_arg3)) := by
  refine (W4_arr m ρ c 3).trans ((final1 (V3 m ρ) c).trans ?_)
  show R1 (W3 m ρ c (Proc.devRef .tc main_v25)) (W3 m ρ c (Proc.devRef .tc main_v14)) (W3 m ρ c (Proc.devRef .tc main_v26)) = _
  rw [W3_v25, W3_v14, W3_v26]
  rfl
theorem W4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 (c : Dev nD) : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_v14 (c : Dev nD) : W4 m ρ c (Proc.devRef .tc main_v14) = scaleCol (m ((c : Thread nD τ).loc main_arg1)) :=
  (W4_arr m ρ c 1).trans (((dat1 (V3 m ρ) c).arrAt_in 1 rfl _).trans ((A_eq1 (V3 m ρ) c 1).trans (W3_v14 m ρ c)))
theorem W4_arg (c : Dev nD) : W4 m ρ c (Proc.devRef .tc main_arg4) = (m ((c : Thread nD τ).loc main_arg4))
    ∧ W4 m ρ c (Proc.devRef .tc main_arg5) = (m ((c : Thread nD τ).loc main_arg5))
    ∧ W4 m ρ c (Proc.devRef .tc main_arg6) = (m ((c : Thread nD τ).loc main_arg6))
    ∧ W4 m ρ c (Proc.devRef .tc main_arg7) = (m ((c : Thread nD τ).loc main_arg7)) :=
  ⟨(W4_of_ne m ρ c main_arg4 (by decide)).trans (W3_arg m ρ c).1,
   (W4_of_ne m ρ c main_arg5 (by decide)).trans (W3_arg m ρ c).2.1,
   (W4_of_ne m ρ c main_arg6 (by decide)).trans (W3_arg m ρ c).2.2.1,
   (W4_of_ne m ρ c main_arg7 (by decide)).trans (W3_arg m ρ c).2.2.2⟩

/-! ## After the third host stretch -/

/-- The two head weights side by side, and the two head biases end to end as a row. -/
def wcat (a4 a6 : S128x64.Idx → EReal) : S128x128.Idx → EReal :=
  concatenate S128x128 1 [⟨S128x64, a4⟩, ⟨S128x64, a6⟩] concatenates_S128x64_S128x64_S128x128_d1
def bcat (a5 a7 : S64.Idx → EReal) : S1x128.Idx → EReal :=
  shapeCast S1x128 (concatenate S128 0 [⟨S64, a5⟩, ⟨S64, a7⟩] concatenates_S64_S64_S128_d0) shapeCasts_S128_S1x128

theorem W5_v37 (c : Dev nD) : W5 m ρ c (Proc.devRef .tc main_v37) = agg (m ((c : Thread nD τ).loc main_arg1)) (H2 (m ((c : Thread nD τ).loc main_arg0)) (m ((c : Thread nD τ).loc main_arg1)) (m ((c : Thread nD τ).loc main_arg2)) (m ((c : Thread nD τ).loc main_arg3))) := by
  dsimp only [W5, hostOps2]
  after_results
  rw [W4_v6, W4_v27, W4_v3]
  rfl
theorem W5_v38 (c : Dev nD) : W5 m ρ c (Proc.devRef .tc main_v38) = wcat (m ((c : Thread nD τ).loc main_arg4)) (m ((c : Thread nD τ).loc main_arg6)) := by
  dsimp only [W5, hostOps2]
  after_results
  rw [(W4_arg m ρ c).1, (W4_arg m ρ c).2.2.1]
  rfl
theorem W5_v40 (c : Dev nD) : W5 m ρ c (Proc.devRef .tc main_v40) = bcat (m ((c : Thread nD τ).loc main_arg5)) (m ((c : Thread nD τ).loc main_arg7)) := by
  dsimp only [W5, hostOps2]
  after_results
  rw [(W4_arg m ρ c).2.1, (W4_arg m ρ c).2.2.2]
  rfl
theorem W5_v14 (c : Dev nD) : W5 m ρ c (Proc.devRef .tc main_v14) = scaleCol (m ((c : Thread nD τ).loc main_arg1)) := by
  dsimp only [W5, hostOps2]
  after_results
  exact W4_v14 m ρ c

/-! ## After region 2, and the two cuts -/

def KOut (a0 : S50000x128.Idx → EReal) (a1 : IVec S2x800000 32) (a2 : S128x128.Idx → EReal) (a3 : S128.Idx → EReal)
    (a4 : S128x64.Idx → EReal) (a5 : S64.Idx → EReal) (a6 : S128x64.Idx → EReal) (a7 : S64.Idx → EReal) : S50000x128.Idx → EReal :=
  R2 (agg a1 (H2 a0 a1 a2 a3)) (scaleCol a1) (wcat a4 a6) (bcat a5 a7)

theorem W6_v41 (c : Dev nD) : W6 m ρ c (Proc.devRef .tc main_v41) = KOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 4).trans ((final2 (V5 m ρ) c).trans ?_)
  show R2 (W5 m ρ c (Proc.devRef .tc main_v37)) (W5 m ρ c (Proc.devRef .tc main_v14)) (W5 m ρ c (Proc.devRef .tc main_v38)) (W5 m ρ c (Proc.devRef .tc main_v40)) = _
  rw [W5_v37, W5_v14, W5_v38, W5_v40]
  rfl

theorem W7_v42 (c : Dev nD) : W7 m ρ c (Proc.devRef .tc main_v42)
    = extractStridedSlice S50000x64 ![0, 0] (KOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) slices_S50000x128_S50000x64_0_0 := by
  dsimp only [W7, hostOps3]
  after_results
  rw [W6_v41]
theorem W7_v43 (c : Dev nD) : W7 m ρ c (Proc.devRef .tc main_v43)
    = extractStridedSlice S50000x64 ![0, 64] (KOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) slices_S50000x128_S50000x64_0_64 := by
  dsimp only [W7, hostOps3]
  after_results
  rw [W6_v41]

end Cert.KernelIdeal.KV
end
-- ==== Proof.FiniteInputs.lean ====
/-
  The precondition read back: the printed predicate `finite_inputs` is, for each of the seven float
  arguments, the conjunction over all elements of |x| < +∞, and the seven conjunctions and-ed together.
  When it evaluates to 1, every element of every float argument array is a real number (neither
  infinity nor the junk value ⊥ of the extended reals).
-/
import proofs.«142467_j24335284699606_2_alg».proof.Defs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Idealize.SL.Sem
open Cert.Pre_finite_inputs

/-- A rank-0 array has one index. -/
instance : Subsingleton S_.Idx := ⟨fun a b => funext fun d => d.elim0⟩

/-- An extended real whose absolute value max x (-x) is strictly below +∞ is a real number:
    at ⊥ and at ⊤ the absolute value is ⊤, which is not below itself. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- One argument: if the and-reduction over all elements of |x| < +∞ is 1, every element of x is real. -/
theorem real_of_all {s : Shape} {axes : List (Fin s.rank)} (hb : S_.BroadcastsInDim s (![] : Fin 0 → Fin s.rank))
    (hr : s.ReducesTo axes S_) (h0 : 0 < S_.numel) (x : FVec Ideal s .f32)
    (e : Host.reduce IntOp.andi
          (cmpf .olt (Host.absf x) (broadcastInDim s ![] hb (constant (F := Ideal) S_ .f32 0x7F800000#32)))
          (constantI S_ 1 1#1) hr h0 ix0 = 1#1) (i : s.Idx) : ∃ r : ℝ, x i = (r : EReal) :=
  real_of_abs_lt_top (x i) (Host.reduce_andi_all _ _ hr h0 ix0 e i)

/-- THE PRECONDITION DECODED: every element of each float argument array is a real number. -/
theorem real_of_pre [hF : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S50000x128.Idx, ∃ r : ℝ, m ((c.tc : Thread Cert.KernelIdeal.nD Cert.KernelIdeal.τ).loc Cert.KernelIdeal.main_arg0) i = (r : EReal))
    ∧ (∀ i : S128x128.Idx, ∃ r : ℝ, m ((c.tc : Thread Cert.KernelIdeal.nD Cert.KernelIdeal.τ).loc Cert.KernelIdeal.main_arg2) i = (r : EReal))
    ∧ (∀ i : S128.Idx, ∃ r : ℝ, m ((c.tc : Thread Cert.KernelIdeal.nD Cert.KernelIdeal.τ).loc Cert.KernelIdeal.main_arg3) i = (r : EReal))
    ∧ (∀ i : S128x64.Idx, ∃ r : ℝ, m ((c.tc : Thread Cert.KernelIdeal.nD Cert.KernelIdeal.τ).loc Cert.KernelIdeal.main_arg4) i = (r : EReal))
    ∧ (∀ i : S64.Idx, ∃ r : ℝ, m ((c.tc : Thread Cert.KernelIdeal.nD Cert.KernelIdeal.τ).loc Cert.KernelIdeal.main_arg5) i = (r : EReal))
    ∧ (∀ i : S128x64.Idx, ∃ r : ℝ, m ((c.tc : Thread Cert.KernelIdeal.nD Cert.KernelIdeal.τ).loc Cert.KernelIdeal.main_arg6) i = (r : EReal))
    ∧ (∀ i : S64.Idx, ∃ r : ℝ, m ((c.tc : Thread Cert.KernelIdeal.nD Cert.KernelIdeal.τ).loc Cert.KernelIdeal.main_arg7) i = (r : EReal)) := by
  have e := congrFun (h c) ix0
  unfold Cert.Pre_finite_inputs.fn Cert.Pre_finite_inputs.fn_part1 at e
  simp only [andi, IntOp.andi_eq_one] at e
  obtain ⟨⟨⟨⟨⟨⟨e0, e2⟩, e3⟩, e4⟩, e5⟩, e6⟩, e7⟩ := e
  exact ⟨real_of_all _ _ _ _ e0, real_of_all _ _ _ _ e2, real_of_all _ _ _ _ e3, real_of_all _ _ _ _ e4,
    real_of_all _ _ _ _ e5, real_of_all _ _ _ _ e6, real_of_all _ _ _ _ e7⟩

/-- The same with the real values chosen: each float argument array is the coercion of a real array. -/
theorem real_arrays_of_pre [hF : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∃ x0 : S50000x128.Idx → ℝ, m ((c.tc : Thread Cert.KernelIdeal.nD Cert.KernelIdeal.τ).loc Cert.KernelIdeal.main_arg0) = fun i => (x0 i : EReal))
    ∧ (∃ x2 : S128x128.Idx → ℝ, m ((c.tc : Thread Cert.KernelIdeal.nD Cert.KernelIdeal.τ).loc Cert.KernelIdeal.main_arg2) = fun i => (x2 i : EReal))
    ∧ (∃ x3 : S128.Idx → ℝ, m ((c.tc : Thread Cert.KernelIdeal.nD Cert.KernelIdeal.τ).loc Cert.KernelIdeal.main_arg3) = fun i => (x3 i : EReal))
    ∧ (∃ x4 : S128x64.Idx → ℝ, m ((c.tc : Thread Cert.KernelIdeal.nD Cert.KernelIdeal.τ).loc Cert.KernelIdeal.main_arg4) = fun i => (x4 i : EReal))
    ∧ (∃ x5 : S64.Idx → ℝ, m ((c.tc : Thread Cert.KernelIdeal.nD Cert.KernelIdeal.τ).loc Cert.KernelIdeal.main_arg5) = fun i => (x5 i : EReal))
    ∧ (∃ x6 : S128x64.Idx → ℝ, m ((c.tc : Thread Cert.KernelIdeal.nD Cert.KernelIdeal.τ).loc Cert.KernelIdeal.main_arg6) = fun i => (x6 i : EReal))
    ∧ (∃ x7 : S64.Idx → ℝ, m ((c.tc : Thread Cert.KernelIdeal.nD Cert.KernelIdeal.τ).loc Cert.KernelIdeal.main_arg7) = fun i => (x7 i : EReal)) := by
  obtain ⟨h0, h2, h3, h4, h5, h6, h7⟩ := real_of_pre m h c
  exact ⟨⟨fun i => (h0 i).choose, funext fun i => (h0 i).choose_spec⟩,
    ⟨fun i => (h2 i).choose, funext fun i => (h2 i).choose_spec⟩,
    ⟨fun i => (h3 i).choose, funext fun i => (h3 i).choose_spec⟩,
    ⟨fun i => (h4 i).choose, funext fun i => (h4 i).choose_spec⟩,
    ⟨fun i => (h5 i).choose, funext fun i => (h5 i).choose_spec⟩,
    ⟨fun i => (h6 i).choose, funext fun i => (h6 i).choose_spec⟩,
    ⟨fun i => (h7 i).choose, funext fun i => (h7 i).choose_spec⟩⟩

end Cert.FiniteInputs

end
-- ==== Proof.GatherScatter.lean ====
/-
  Gathers and scatter-adds of whole rows, read at an index. A gather of rows of a table at a column of
  start indices reads, at (e, f), the table at the row the e-th start index names (read signed, clamped
  into the table) and column f. A scatter-add of rows at a column of indices holds, at (v, f), the
  operand's element plus the sum of column f of the updates over the edges whose index, read signed,
  is v. Proved for any dimension record with these dimension numbers, then stated for the printed
  records of the two programs.
-/
import proofs.«142467_j24335284699606_2_alg».proof.KernelIdeal
import proofs.«142467_j24335284699606_2_alg».proof.ReferenceIdeal
import Idealize.ShloMosaic.Lib.ValueIdx
import Idealize.ShloMosaic.PureOps.Ideal

noncomputable section

open scoped BigOperators
open Idealize.ShloMosaic Idealize.ShloMosaic.ValueIdx

namespace Cert.GatherScatter

/-! ## Row gathers read at an index

A gather of whole rows of a table `x : [N, C]` at a column of start indices `idx : [E, 1]`
(offset axis 1, collapsed axis 0, start index map `[0]`, index vector on axis 1, slices `1 × C`):
result element `(e, f)` is `x` at row `idx[e, 0]`, read signed and clamped into `[0, N − 1]`,
column `f`. -/

section Gather
variable {α : Type} {w : Nat}

/-- The generic computation for such a record `d`: every field is given as an equation, so that the
    three printed records share one proof. -/
theorem gather_rows_apply {N C E : Nat}
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (f : Fin C) (hN : 0 < N) :
    Host.gather d x idx (ix2 e f) = x (ix2 ⟨min (idx (ix2 e 0)).toInt.toNat (N - 1), by omega⟩ f) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : _), GatherDims.siIdx (s := ⟨2, ![N, C]⟩) (si := ⟨2, ![E, 1]⟩) (t := ⟨2, ![E, C]⟩)
        ⟨[1], [0], [], [], [0], 1, ![1, C], wf⟩ (ix2 e f) ⟨List.idxOf (0 : Fin 2) [0], p⟩ = ix2 e 0 := by
      intro p
      funext b; refine Fin.ext ?_
      match b with
      | ⟨0, _⟩ => rfl
      | ⟨1, _⟩ => rfl
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start
    rw [dif_neg (show (1 : Fin 2) ∉ [0] by decide)]
    simp only [Nat.add_zero, Nat.zero_add]
    unfold GatherDims.offCoord
    rw [dif_pos ((GatherDims.mem_sKept _ _).mpr ⟨(show (1 : Fin 2) ∉ [0] by decide), List.not_mem_nil⟩)]
    rfl

/-- The flat gather: `x : [N]` at a column of start indices `idx : [E, 1]` (no offset axis, collapsed axis 0):
    result element `e` is `x` at `idx[e, 0]`, read signed and clamped into `[0, N − 1]`. -/
theorem gather_flat_apply {N E : Nat}
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) (hN : 0 < N) :
    Host.gather d x idx (ix1 e) = x (ix1 ⟨min (idx (ix2 e 0)).toInt.toNat (N - 1), by omega⟩) := by
  obtain ⟨od, cd, ob, sb, sm, iv, ss, wf⟩ := d
  simp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ (p : _), GatherDims.siIdx (s := ⟨1, ![N]⟩) (si := ⟨2, ![E, 1]⟩) (t := ⟨1, ![E]⟩)
      ⟨[], [0], [], [], [0], 1, ![1], wf⟩ (ix1 e) ⟨List.idxOf (0 : Fin 1) [0], p⟩ = ix2 e 0 := by
    intro p
    funext b; refine Fin.ext ?_
    match b with
    | ⟨0, _⟩ => rfl
    | ⟨1, _⟩ => rfl
  rw [hsi]
  rfl

end Gather

/-! ## Row scatters: where an update lands

A scatter of rows `upd : [E, C]` into a table `[N, C]` at a column of indices `idx : [E, 1]` (window axis 1 of the
updates, inserted axis 0, scatter-dims-to-operand-dims `[0]`, index vector on axis 1): update element `(e, f')`
lands at row `idx[e, 0]` — read signed, not clamped; dropped when outside `[0, N)` — and column `f'`. -/

section Scatter
variable {w : Nat}

/-- Those dimension numbers, over any proof of their conditions. -/
abbrev rowsDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N C E : Nat} (wf : ScatterDims.WF ⟨2, ![N, C]⟩ ⟨2, ![E, 1]⟩ ⟨2, ![E, C]⟩ [1] [0] [0] 1)
  (idx : IVec ⟨2, ![E, 1]⟩ w) (e : Fin E) (f' : Fin C)

/-- The start on the row axis: the scatter index of the update's row, read signed. -/
theorem rows_start0 : (rowsDims N C E wf).start (ix2 e f') idx (0 : Fin 2) = (idx (ix2 e 0)).toInt := by
  have hsi : ∀ (p : _), (rowsDims N C E wf).siIdx (ix2 e f') ⟨List.idxOf (0 : Fin 2) [0], p⟩ = ix2 e 0 := by
    intro p
    funext b; refine Fin.ext ?_
    match b with
    | ⟨0, _⟩ => rfl
    | ⟨1, _⟩ => rfl
  unfold ScatterDims.start
  rw [dif_pos (List.mem_singleton.mpr rfl), hsi]

/-- The start on the column axis is `0`: the map does not name it. -/
theorem rows_start1 : (rowsDims N C E wf).start (ix2 e f') idx (1 : Fin 2) = 0 := by
  unfold ScatterDims.start
  rw [dif_neg (show (1 : Fin 2) ∉ [0] by decide)]

/-- The window coordinate on the row axis is `0`: the axis is inserted. -/
theorem rows_window0 : (rowsDims N C E wf).window (ix2 e f') (0 : Fin 2) = 0 := by
  have hk : (0 : Fin 2) ∉ (List.finRange 2).filter (· ∉ [0]) := by decide
  unfold ScatterDims.window
  rw [dif_neg]
  exact hk

/-- The window coordinate on the column axis is the update's column. -/
theorem rows_window1 : (rowsDims N C E wf).window (ix2 e f') (1 : Fin 2) = f'.val := by
  have hk : (1 : Fin 2) ∈ (List.finRange 2).filter (· ∉ [0]) := by decide
  unfold ScatterDims.window
  rw [dif_pos]
  · rfl
  · exact hk

end

theorem scatter_rows_resultIdx {N C E : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (idx : IVec ⟨2, ![E, 1]⟩ w) (e : Fin E) (f' f : Fin C) (v : Fin N) :
    d.resultIdx? (ix2 e f') idx = some (ix2 v f) ↔ ((idx (ix2 e 0)).toInt = (v.val : Int) ∧ f' = f) := by
  obtain ⟨uw, iw, sd, iv, wf⟩ := d
  simp only at huw hiw hsd hiv
  subst huw hiw hsd hiv
  change (rowsDims N C E wf).resultIdx? (ix2 e f') idx = some (ix2 v f) ↔ _
  have hs0 := rows_start0 wf idx e f'
  have hs1 := rows_start1 wf idx e f'
  have hw0 := rows_window0 wf e f'
  have hw1 := rows_window1 wf e f'
  have hvN : (v.val : Int) < (N : Int) := by exact_mod_cast v.isLt
  have hfC : (f'.val : Int) < (C : Int) := by exact_mod_cast f'.isLt
  unfold ScatterDims.resultIdx?
  split
  · rename_i h
    have h0 := h (0 : Fin 2)
    have h1 := h (1 : Fin 2)
    rw [hs0, hw0] at h0
    rw [hs1, hw1] at h1
    constructor
    · intro hh
      have hh' := Option.some.inj hh
      have e0 : ((rowsDims N C E wf).start (ix2 e f') idx (0 : Fin 2)
          + ((rowsDims N C E wf).window (ix2 e f') (0 : Fin 2) : Nat)).toNat = v.val :=
        congrArg (fun g => (g (0 : Fin 2)).val) hh'
      have e1 : ((rowsDims N C E wf).start (ix2 e f') idx (1 : Fin 2)
          + ((rowsDims N C E wf).window (ix2 e f') (1 : Fin 2) : Nat)).toNat = f.val :=
        congrArg (fun g => (g (1 : Fin 2)).val) hh'
      rw [hs0, hw0] at e0
      rw [hs1, hw1] at e1
      exact ⟨by omega, Fin.ext (by omega)⟩
    · rintro ⟨hi, rfl⟩
      congr 1
      funext a
      refine Fin.ext ?_
      match a with
      | ⟨0, _⟩ =>
        show ((rowsDims N C E wf).start (ix2 e f') idx (0 : Fin 2)
          + ((rowsDims N C E wf).window (ix2 e f') (0 : Fin 2) : Nat)).toNat = v.val
        rw [hs0, hw0]; omega
      | ⟨1, _⟩ =>
        show ((rowsDims N C E wf).start (ix2 e f') idx (1 : Fin 2)
          + ((rowsDims N C E wf).window (ix2 e f') (1 : Fin 2) : Nat)).toNat = f'.val
        rw [hs1, hw1]; omega
  · rename_i h
    constructor
    · intro hh; exact absurd hh (by simp)
    · rintro ⟨hi, rfl⟩
      exfalso
      apply h
      intro a
      match a with
      | ⟨0, _⟩ =>
        show 0 ≤ (rowsDims N C E wf).start (ix2 e f') idx (0 : Fin 2)
            + ((rowsDims N C E wf).window (ix2 e f') (0 : Fin 2) : Nat) ∧
          (rowsDims N C E wf).start (ix2 e f') idx (0 : Fin 2)
            + ((rowsDims N C E wf).window (ix2 e f') (0 : Fin 2) : Nat) < (N : Int)
        rw [hs0, hw0]; omega
      | ⟨1, _⟩ =>
        show 0 ≤ (rowsDims N C E wf).start (ix2 e f') idx (1 : Fin 2)
            + ((rowsDims N C E wf).window (ix2 e f') (1 : Fin 2) : Nat) ∧
          (rowsDims N C E wf).start (ix2 e f') idx (1 : Fin 2)
            + ((rowsDims N C E wf).window (ix2 e f') (1 : Fin 2) : Nat) < (C : Int)
        rw [hs1, hw1]; omega

/-- The accumulating row scatter read at an index, at the ideal instance: the operand's element plus the sum, over
    the edges whose index is the row, of their update in that column. -/
theorem scatterAdd_rows_apply {N C E : Nat} {φ : FTy}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ)
    (v : Fin N) (f : Fin C) :
    Host.scatterAdd (F := Ideal) d x idx upd (ix2 v f)
      = x (ix2 v f) + ∑ e ∈ Finset.univ.filter (fun e : Fin E => (idx (ix2 e 0)).toInt = (v.val : Int)), upd (ix2 e f) := by
  have key : ∀ j : (⟨2, ![E, C]⟩ : Shape).Idx, d.resultIdx? j idx = some (ix2 v f) ↔
      ((idx (ix2 (j 0 : Fin E) 0)).toInt = (v.val : Int) ∧ (j 1 : Fin C) = f) := by
    intro j
    obtain ⟨a, b, rfl⟩ : ∃ a b, j = ix2 a b := ⟨j 0, j 1, eq_ix2 j⟩
    exact scatter_rows_resultIdx d huw hiw hsd hiv idx a b f v
  show Ideal.hostScatterAdd d x idx upd (ix2 v f) = _
  unfold Ideal.hostScatterAdd
  congr 1
  refine Finset.sum_nbij' (fun j => (j 0 : Fin E)) (fun e => ix2 e f) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key _).mpr ⟨(Finset.mem_filter.mp he).2, rfl⟩⟩
  · intro j hj
    have h1 := ((key j).mp (Finset.mem_filter.mp hj).2).2
    show ix2 (j 0 : Fin E) f = j
    rw [← h1]
    exact (eq_ix2 j).symm
  · intro e _
    rfl
  · intro j hj
    have h1 := ((key j).mp (Finset.mem_filter.mp hj).2).2
    show upd j = upd (ix2 (j 0 : Fin E) f)
    rw [← h1]
    exact congrArg upd (eq_ix2 j)

end Scatter

/-! ## The printed records -/

section Printed
variable {α : Type} {w : Nat} {φ : FTy}

/-- The kernel's gather of 128-wide rows, read at `(e, f)`. -/
theorem kernel_gather_rows128_apply [Cert.KernelIdeal.Facts₀]
    (x : (⟨2, ![50000, 128]⟩ : Shape).Idx → α) (idx : IVec ⟨2, ![850000, 1]⟩ w) (e : Fin 850000) (f : Fin 128) :
    Host.gather Cert.KernelIdeal.gather_S50000x128_S850000x1_S850000x128_1_0_n_n_0_1_1128 x idx (ix2 e f)
      = x (ix2 ⟨min (idx (ix2 e 0)).toInt.toNat 49999, by omega⟩ f) :=
  gather_rows_apply _ rfl rfl rfl rfl rfl rfl rfl x idx e f (by omega)

/-- The reference's gather of 128-wide rows, read at `(e, f)`. -/
theorem reference_gather_rows128_apply [Cert.ReferenceIdeal.Facts₀]
    (x : (⟨2, ![50000, 128]⟩ : Shape).Idx → α) (idx : IVec ⟨2, ![850000, 1]⟩ w) (e : Fin 850000) (f : Fin 128) :
    Host.gather Cert.ReferenceIdeal.gather_S50000x128_S850000x1_S850000x128_1_0_n_n_0_1_1128 x idx (ix2 e f)
      = x (ix2 ⟨min (idx (ix2 e 0)).toInt.toNat 49999, by omega⟩ f) :=
  gather_rows_apply _ rfl rfl rfl rfl rfl rfl rfl x idx e f (by omega)

/-- The reference's gather of 64-wide rows, read at `(e, f)`. -/
theorem reference_gather_rows64_apply [Cert.ReferenceIdeal.Facts₀]
    (x : (⟨2, ![50000, 64]⟩ : Shape).Idx → α) (idx : IVec ⟨2, ![850000, 1]⟩ w) (e : Fin 850000) (f : Fin 64) :
    Host.gather Cert.ReferenceIdeal.gather_S50000x64_S850000x1_S850000x64_1_0_n_n_0_1_164 x idx (ix2 e f)
      = x (ix2 ⟨min (idx (ix2 e 0)).toInt.toNat 49999, by omega⟩ f) :=
  gather_rows_apply _ rfl rfl rfl rfl rfl rfl rfl x idx e f (by omega)

/-- The reference's flat gather, read at `e`. -/
theorem reference_gather_flat_apply [Cert.ReferenceIdeal.Facts₀]
    (x : (⟨1, ![50000]⟩ : Shape).Idx → α) (idx : IVec ⟨2, ![850000, 1]⟩ w) (e : Fin 850000) :
    Host.gather Cert.ReferenceIdeal.gather_S50000_S850000x1_S850000_n_0_n_n_0_1_1 x idx (ix1 e)
      = x (ix1 ⟨min (idx (ix2 e 0)).toInt.toNat 49999, by omega⟩) :=
  gather_flat_apply _ rfl rfl rfl rfl rfl rfl rfl x idx e (by omega)

/-- Where an update of the kernel's 128-wide row scatter lands. -/
theorem kernel_scatter_rows128_resultIdx [Cert.KernelIdeal.Facts₀]
    (idx : IVec ⟨2, ![850000, 1]⟩ w) (e : Fin 850000) (f' f : Fin 128) (v : Fin 50000) :
    Cert.KernelIdeal.scatter_S50000x128_S850000x1_S850000x128_1_0_0_1.resultIdx? (ix2 e f') idx = some (ix2 v f)
      ↔ ((idx (ix2 e 0)).toInt = (v.val : Int) ∧ f' = f) :=
  scatter_rows_resultIdx _ rfl rfl rfl rfl idx e f' f v

/-- Where an update of the reference's 128-wide row scatter lands. -/
theorem reference_scatter_rows128_resultIdx [Cert.ReferenceIdeal.Facts₀]
    (idx : IVec ⟨2, ![850000, 1]⟩ w) (e : Fin 850000) (f' f : Fin 128) (v : Fin 50000) :
    Cert.ReferenceIdeal.scatter_S50000x128_S850000x1_S850000x128_1_0_0_1.resultIdx? (ix2 e f') idx = some (ix2 v f)
      ↔ ((idx (ix2 e 0)).toInt = (v.val : Int) ∧ f' = f) :=
  scatter_rows_resultIdx _ rfl rfl rfl rfl idx e f' f v

/-- Where an update of the reference's 64-wide row scatter lands. -/
theorem reference_scatter_rows64_resultIdx [Cert.ReferenceIdeal.Facts₀]
    (idx : IVec ⟨2, ![850000, 1]⟩ w) (e : Fin 850000) (f' f : Fin 64) (v : Fin 50000) :
    Cert.ReferenceIdeal.scatter_S50000x64_S850000x1_S850000x64_1_0_0_1.resultIdx? (ix2 e f') idx = some (ix2 v f)
      ↔ ((idx (ix2 e 0)).toInt = (v.val : Int) ∧ f' = f) :=
  scatter_rows_resultIdx _ rfl rfl rfl rfl idx e f' f v

/-- The kernel's accumulating 128-wide row scatter, read at `(v, f)`. -/
theorem kernel_scatterAdd_rows128_apply [Cert.KernelIdeal.Facts₀]
    (x : FVec Ideal ⟨2, ![50000, 128]⟩ φ) (idx : IVec ⟨2, ![850000, 1]⟩ w) (upd : FVec Ideal ⟨2, ![850000, 128]⟩ φ)
    (v : Fin 50000) (f : Fin 128) :
    Host.scatterAdd (F := Ideal) Cert.KernelIdeal.scatter_S50000x128_S850000x1_S850000x128_1_0_0_1 x idx upd (ix2 v f)
      = x (ix2 v f) + ∑ e ∈ Finset.univ.filter (fun e : Fin 850000 => (idx (ix2 e 0)).toInt = (v.val : Int)), upd (ix2 e f) :=
  scatterAdd_rows_apply _ rfl rfl rfl rfl x idx upd v f

/-- The reference's accumulating 128-wide row scatter, read at `(v, f)`. -/
theorem reference_scatterAdd_rows128_apply [Cert.ReferenceIdeal.Facts₀]
    (x : FVec Ideal ⟨2, ![50000, 128]⟩ φ) (idx : IVec ⟨2, ![850000, 1]⟩ w) (upd : FVec Ideal ⟨2, ![850000, 128]⟩ φ)
    (v : Fin 50000) (f : Fin 128) :
    Host.scatterAdd (F := Ideal) Cert.ReferenceIdeal.scatter_S50000x128_S850000x1_S850000x128_1_0_0_1 x idx upd (ix2 v f)
      = x (ix2 v f) + ∑ e ∈ Finset.univ.filter (fun e : Fin 850000 => (idx (ix2 e 0)).toInt = (v.val : Int)), upd (ix2 e f) :=
  scatterAdd_rows_apply _ rfl rfl rfl rfl x idx upd v f

/-- The reference's accumulating 64-wide row scatter, read at `(v, f)`. -/
theorem reference_scatterAdd_rows64_apply [Cert.ReferenceIdeal.Facts₀]
    (x : FVec Ideal ⟨2, ![50000, 64]⟩ φ) (idx : IVec ⟨2, ![850000, 1]⟩ w) (upd : FVec Ideal ⟨2, ![850000, 64]⟩ φ)
    (v : Fin 50000) (f : Fin 64) :
    Host.scatterAdd (F := Ideal) Cert.ReferenceIdeal.scatter_S50000x64_S850000x1_S850000x64_1_0_0_1 x idx upd (ix2 v f)
      = x (ix2 v f) + ∑ e ∈ Finset.univ.filter (fun e : Fin 850000 => (idx (ix2 e 0)).toInt = (v.val : Int)), upd (ix2 e f) :=
  scatterAdd_rows_apply _ rfl rfl rfl rfl x idx upd v f

end Printed

end Cert.GatherScatter

end
-- ==== Proof.RefIndex.lean ====
/-
  The reference program read at an index. Each layer of the reference is: a product with a weight
  matrix, a gather of the product's rows at the (wrapped, clamped) source node of every edge, a scaling
  of each gathered row by the product of the two end nodes' scales, a scatter-add of the scaled rows to
  the destination node of every edge, and the addition of a bias row. Read at one element this is: the
  sum, over the edges into the node, of the source row's product with the weight column times the
  edge's scale, plus the bias. The edge columns and the per-node scale stay the named stages of the
  reference's own reading; nothing here opens what they compute.
-/
import proofs.«142467_j24335284699606_2_alg».proof.Proof.Gen.ReferenceIdeal.Read
import proofs.«142467_j24335284699606_2_alg».proof.Proof.GatherScatter

noncomputable section

namespace Cert.ReferenceIdeal.RefIdx

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S128x64, .f32⟩ : BufTy).Contents (Elt Ideal)) (x7 : (⟨S64, .f32⟩ : BufTy).Contents (Elt Ideal))

/-! ### The named stages -/

/-- The source column of the edge list (self-loops appended), negative entries wrapped by the node count. -/
def srcCol : IVec S850000x1 32 := val_main_v19 (F := Ideal) x1
/-- The destination column of the edge list (self-loops appended), as the scatters read it: not wrapped. -/
def dstCol : IVec S850000x1 32 := val_main_v9 (F := Ideal) x1
/-- The destination column, negative entries wrapped by the node count, as the scale's gather reads it. -/
def dstWCol : IVec S850000x1 32 := val_main_v26 (F := Ideal) x1
/-- The per-node scale. -/
def dinv : FVec Ideal S50000 .f32 := val_main_v13 (F := Ideal) x1
/-- The hidden state: layer one after the rectifier. -/
def hidden : FVec Ideal S50000x128 .f32 := val_main_v46 (F := Ideal) x0 x1 x2 x3

theorem srcCol_eq : srcCol x1 = val_main_v19 (F := Ideal) x1 := rfl
theorem dstCol_eq : dstCol x1 = val_main_v9 (F := Ideal) x1 := rfl
theorem dstWCol_eq : dstWCol x1 = val_main_v26 (F := Ideal) x1 := rfl
theorem dinv_eq : dinv x1 = val_main_v13 (F := Ideal) x1 := rfl
theorem hidden_eq : hidden x0 x1 x2 x3 = val_main_v46 (F := Ideal) x0 x1 x2 x3 := rfl

/-- The four source columns the program builds are one term. -/
theorem srcCol_eq35 : val_main_v35 (F := Ideal) x1 = srcCol x1 := rfl
theorem srcCol_eq53 : val_main_v53 (F := Ideal) x1 = srcCol x1 := rfl
theorem srcCol_eq70 : val_main_v70 (F := Ideal) x1 = srcCol x1 := rfl
/-- The four destination columns the scatters read are one term. -/
theorem dstCol_eq41 : val_main_v41 (F := Ideal) x1 = dstCol x1 := rfl
theorem dstCol_eq59 : val_main_v59 (F := Ideal) x1 = dstCol x1 := rfl
theorem dstCol_eq76 : val_main_v76 (F := Ideal) x1 = dstCol x1 := rfl

/-- The source node of edge e: the wrapped source entry read signed, clamped into the node range. -/
def srcOf (e : Fin 850000) : Fin 50000 := ⟨min (srcCol x1 (ix2 e 0)).toInt.toNat 49999, by omega⟩
/-- The destination node of edge e as the scale's gather reads it: wrapped, signed, clamped. -/
def dstOf (e : Fin 850000) : Fin 50000 := ⟨min (dstWCol x1 (ix2 e 0)).toInt.toNat 49999, by omega⟩
/-- The edges whose (unwrapped) destination entry, read signed, is node v. -/
def edgesInto (v : Fin 50000) : Finset (Fin 850000) :=
  Finset.univ.filter (fun e : Fin 850000 => (dstCol x1 (ix2 e 0)).toInt = (v.val : Int))

theorem srcOf_val (e : Fin 850000) : (srcOf x1 e).val = min (srcCol x1 (ix2 e 0)).toInt.toNat 49999 := rfl
theorem dstOf_val (e : Fin 850000) : (dstOf x1 e).val = min (dstWCol x1 (ix2 e 0)).toInt.toNat 49999 := rfl
theorem mem_edgesInto (v : Fin 50000) (e : Fin 850000) :
    e ∈ edgesInto x1 v ↔ (dstCol x1 (ix2 e 0)).toInt = (v.val : Int) := by
  unfold edgesInto; simp

/-! ### The edge's scale -/

/-- The scale of edge e: the product of its two end nodes' scales. -/
theorem v28_at (e : Fin 850000) :
    val_main_v28 (F := Ideal) x1 (ix1 e) = dinv x1 (ix1 (srcOf x1 e)) * dinv x1 (ix1 (dstOf x1 e)) := by
  have h20 : val_main_v20 (F := Ideal) x1 (ix1 e) = dinv x1 (ix1 (srcOf x1 e)) :=
    Cert.GatherScatter.reference_gather_flat_apply (val_main_v13 (F := Ideal) x1) (val_main_v19 (F := Ideal) x1) e
  have h27 : val_main_v27 (F := Ideal) x1 (ix1 e) = dinv x1 (ix1 (dstOf x1 e)) :=
    Cert.GatherScatter.reference_gather_flat_apply (val_main_v13 (F := Ideal) x1) (val_main_v26 (F := Ideal) x1) e
  rw [val_main_v28_apply]
  show val_main_v20 (F := Ideal) x1 (ix1 e) * val_main_v27 (F := Ideal) x1 (ix1 e) = _
  rw [h20, h27]

/-! ### Layer one -/

theorem lidx29 (s : Fin 50000) (k k' : Fin 128) : lidx_main_v29 (ix2 s k) k' = ix2 s k' := by
  funext a; match a with | ⟨0, _⟩ => rfl | ⟨1, _⟩ => rfl
theorem ridx29 (s : Fin 50000) (k k' : Fin 128) : ridx_main_v29 (ix2 s k) k' = ix2 k' k := by
  funext a; match a with | ⟨0, _⟩ => rfl | ⟨1, _⟩ => rfl

/-- The gathered row of the product with the first weight matrix, at edge e and column k. -/
theorem v36_at (e : Fin 850000) (k : Fin 128) :
    val_main_v36 (F := Ideal) x0 x1 x2 (ix2 e k) = ∑ k' : Fin 128, x0 (ix2 (srcOf x1 e) k') * x2 (ix2 k' k) := by
  have h : val_main_v36 (F := Ideal) x0 x1 x2 (ix2 e k) = val_main_v29 (F := Ideal) x0 x2 (ix2 (srcOf x1 e) k) :=
    Cert.GatherScatter.reference_gather_rows128_apply (val_main_v29 (F := Ideal) x0 x2) (val_main_v35 (F := Ideal) x1) e k
  rw [h, val_main_v29_apply]
  simp only [lidx29, ridx29]

/-- The edge's scale broadcast along the row, at edge e and column k. -/
theorem v38_at (e : Fin 850000) (k : Fin 128) :
    val_main_v38 (F := Ideal) x1 (ix2 e k) = dinv x1 (ix1 (srcOf x1 e)) * dinv x1 (ix1 (dstOf x1 e)) := by
  rw [val_main_v38_apply, val_main_v37_apply]
  have hi : idx_main_v37 (idx_main_v38 (ix2 e k)) = ix1 e := by
    funext a; match a with | ⟨0, _⟩ => rfl
  rw [hi]
  exact v28_at x1 e

/-- The bias row broadcast over the nodes, at node v and column k. -/
theorem v44_at (v : Fin 50000) (k : Fin 128) : val_main_v44 (F := Ideal) x3 (ix2 v k) = x3 (ix1 k) := by
  rw [val_main_v44_apply, val_main_v43_apply]
  have hi : idx_main_v43 (idx_main_v44 (ix2 v k)) = ix1 k := by
    funext a; match a with | ⟨0, _⟩ => rfl
  rw [hi]

/-- The scatter-add of the scaled rows, at node v and column k. -/
theorem v42_at (v : Fin 50000) (k : Fin 128) :
    val_main_v42 (F := Ideal) x0 x1 x2 (ix2 v k)
      = (0 : EReal) + ∑ e ∈ edgesInto x1 v, (∑ k' : Fin 128, x0 (ix2 (srcOf x1 e) k') * x2 (ix2 k' k))
          * (dinv x1 (ix1 (srcOf x1 e)) * dinv x1 (ix1 (dstOf x1 e))) := by
  have h : val_main_v42 (F := Ideal) x0 x1 x2 (ix2 v k)
      = val_main_v40 (F := Ideal) (ix2 v k) + ∑ e ∈ edgesInto x1 v, val_main_v39 (F := Ideal) x0 x1 x2 (ix2 e k) :=
    Cert.GatherScatter.reference_scatterAdd_rows128_apply (val_main_v40 (F := Ideal)) (val_main_v41 (F := Ideal) x1)
      (val_main_v39 (F := Ideal) x0 x1 x2) v k
  have hz : val_main_v40 (F := Ideal) (ix2 v k) = (0 : EReal) := by
    rw [val_main_v40_apply, val_main_cst_7_apply]; exact Ideal.ofBits_zero_f32
  rw [h, hz]
  refine congrArg (fun t => (0 : EReal) + t) (Finset.sum_congr rfl fun e _ => ?_)
  rw [val_main_v39_apply]
  show val_main_v36 (F := Ideal) x0 x1 x2 (ix2 e k) * val_main_v38 (F := Ideal) x1 (ix2 e k) = _
  rw [v36_at, v38_at]

/-- LAYER ONE AT AN INDEX (before the rectifier). -/
theorem layer1_at (v : Fin 50000) (k : Fin 128) :
    val_main_v45 (F := Ideal) x0 x1 x2 x3 (ix2 v k)
      = ((0 : EReal) + ∑ e ∈ edgesInto x1 v, (∑ k' : Fin 128, x0 (ix2 (srcOf x1 e) k') * x2 (ix2 k' k))
          * (dinv x1 (ix1 (srcOf x1 e)) * dinv x1 (ix1 (dstOf x1 e)))) + x3 (ix1 k) := by
  rw [val_main_v45_apply]
  show val_main_v42 (F := Ideal) x0 x1 x2 (ix2 v k) + val_main_v44 (F := Ideal) x3 (ix2 v k) = _
  rw [v42_at, v44_at]

/-- THE HIDDEN STATE AT AN INDEX: the rectifier is the maximum with zero. -/
theorem hidden_at (i : S50000x128.Idx) :
    hidden x0 x1 x2 x3 i = max (val_main_v45 (F := Ideal) x0 x1 x2 x3 i) (0 : EReal) := by
  unfold hidden
  rw [val_main_v46_apply, val_main_call0_v0_apply, val_main_call0_cst_apply]
  exact congrArg (max (val_main_v45 (F := Ideal) x0 x1 x2 x3 i)) Ideal.ofBits_zero_f32

/-! ### Mu -/

theorem lidx47 (s : Fin 50000) (g : Fin 64) (k : Fin 128) : lidx_main_v47 (ix2 s g) k = ix2 s k := by
  funext a; match a with | ⟨0, _⟩ => rfl | ⟨1, _⟩ => rfl
theorem ridx47 (s : Fin 50000) (g : Fin 64) (k : Fin 128) : ridx_main_v47 (ix2 s g) k = ix2 k g := by
  funext a; match a with | ⟨0, _⟩ => rfl | ⟨1, _⟩ => rfl

/-- The gathered row of the product with the mu weight matrix, at edge e and column g. -/
theorem v54_at (e : Fin 850000) (g : Fin 64) :
    val_main_v54 (F := Ideal) x0 x1 x2 x3 x4 (ix2 e g)
      = ∑ k : Fin 128, hidden x0 x1 x2 x3 (ix2 (srcOf x1 e) k) * x4 (ix2 k g) := by
  have h : val_main_v54 (F := Ideal) x0 x1 x2 x3 x4 (ix2 e g)
      = val_main_v47 (F := Ideal) x0 x1 x2 x3 x4 (ix2 (srcOf x1 e) g) :=
    Cert.GatherScatter.reference_gather_rows64_apply (val_main_v47 (F := Ideal) x0 x1 x2 x3 x4) (val_main_v53 (F := Ideal) x1) e g
  rw [h, val_main_v47_apply]
  simp only [lidx47, ridx47]
  rfl

/-- The edge's scale broadcast along the row, at edge e and column g. -/
theorem v56_at (e : Fin 850000) (g : Fin 64) :
    val_main_v56 (F := Ideal) x1 (ix2 e g) = dinv x1 (ix1 (srcOf x1 e)) * dinv x1 (ix1 (dstOf x1 e)) := by
  rw [val_main_v56_apply, val_main_v55_apply]
  have hi : idx_main_v55 (idx_main_v56 (ix2 e g)) = ix1 e := by
    funext a; match a with | ⟨0, _⟩ => rfl
  rw [hi]
  exact v28_at x1 e

/-- The bias row broadcast over the nodes, at node v and column g. -/
theorem v62_at (v : Fin 50000) (g : Fin 64) : val_main_v62 (F := Ideal) x5 (ix2 v g) = x5 (ix1 g) := by
  rw [val_main_v62_apply, val_main_v61_apply]
  have hi : idx_main_v61 (idx_main_v62 (ix2 v g)) = ix1 g := by
    funext a; match a with | ⟨0, _⟩ => rfl
  rw [hi]

/-- The scatter-add of the scaled rows, at node v and column g. -/
theorem v60_at (v : Fin 50000) (g : Fin 64) :
    val_main_v60 (F := Ideal) x0 x1 x2 x3 x4 (ix2 v g)
      = (0 : EReal) + ∑ e ∈ edgesInto x1 v, (∑ k : Fin 128, hidden x0 x1 x2 x3 (ix2 (srcOf x1 e) k) * x4 (ix2 k g))
          * (dinv x1 (ix1 (srcOf x1 e)) * dinv x1 (ix1 (dstOf x1 e))) := by
  have h : val_main_v60 (F := Ideal) x0 x1 x2 x3 x4 (ix2 v g)
      = val_main_v58 (F := Ideal) (ix2 v g) + ∑ e ∈ edgesInto x1 v, val_main_v57 (F := Ideal) x0 x1 x2 x3 x4 (ix2 e g) :=
    Cert.GatherScatter.reference_scatterAdd_rows64_apply (val_main_v58 (F := Ideal)) (val_main_v59 (F := Ideal) x1)
      (val_main_v57 (F := Ideal) x0 x1 x2 x3 x4) v g
  have hz : val_main_v58 (F := Ideal) (ix2 v g) = (0 : EReal) := by
    rw [val_main_v58_apply, val_main_cst_10_apply]; exact Ideal.ofBits_zero_f32
  rw [h, hz]
  refine congrArg (fun t => (0 : EReal) + t) (Finset.sum_congr rfl fun e _ => ?_)
  rw [val_main_v57_apply]
  show val_main_v54 (F := Ideal) x0 x1 x2 x3 x4 (ix2 e g) * val_main_v56 (F := Ideal) x1 (ix2 e g) = _
  rw [v54_at, v56_at]

/-- MU AT AN INDEX. -/
theorem mu_at (v : Fin 50000) (g : Fin 64) :
    val_main_v63 (F := Ideal) x0 x1 x2 x3 x4 x5 (ix2 v g)
      = ((0 : EReal) + ∑ e ∈ edgesInto x1 v, (∑ k : Fin 128, hidden x0 x1 x2 x3 (ix2 (srcOf x1 e) k) * x4 (ix2 k g))
          * (dinv x1 (ix1 (srcOf x1 e)) * dinv x1 (ix1 (dstOf x1 e)))) + x5 (ix1 g) := by
  rw [val_main_v63_apply]
  show val_main_v60 (F := Ideal) x0 x1 x2 x3 x4 (ix2 v g) + val_main_v62 (F := Ideal) x5 (ix2 v g) = _
  rw [v60_at, v62_at]

/-! ### Sigma -/

theorem lidx64 (s : Fin 50000) (g : Fin 64) (k : Fin 128) : lidx_main_v64 (ix2 s g) k = ix2 s k := by
  funext a; match a with | ⟨0, _⟩ => rfl | ⟨1, _⟩ => rfl
theorem ridx64 (s : Fin 50000) (g : Fin 64) (k : Fin 128) : ridx_main_v64 (ix2 s g) k = ix2 k g := by
  funext a; match a with | ⟨0, _⟩ => rfl | ⟨1, _⟩ => rfl

/-- The gathered row of the product with the sigma weight matrix, at edge e and column g. -/
theorem v71_at (e : Fin 850000) (g : Fin 64) :
    val_main_v71 (F := Ideal) x0 x1 x2 x3 x6 (ix2 e g)
      = ∑ k : Fin 128, hidden x0 x1 x2 x3 (ix2 (srcOf x1 e) k) * x6 (ix2 k g) := by
  have h : val_main_v71 (F := Ideal) x0 x1 x2 x3 x6 (ix2 e g)
      = val_main_v64 (F := Ideal) x0 x1 x2 x3 x6 (ix2 (srcOf x1 e) g) :=
    Cert.GatherScatter.reference_gather_rows64_apply (val_main_v64 (F := Ideal) x0 x1 x2 x3 x6) (val_main_v70 (F := Ideal) x1) e g
  rw [h, val_main_v64_apply]
  simp only [lidx64, ridx64]
  rfl

/-- The edge's scale broadcast along the row, at edge e and column g. -/
theorem v73_at (e : Fin 850000) (g : Fin 64) :
    val_main_v73 (F := Ideal) x1 (ix2 e g) = dinv x1 (ix1 (srcOf x1 e)) * dinv x1 (ix1 (dstOf x1 e)) := by
  rw [val_main_v73_apply, val_main_v72_apply]
  have hi : idx_main_v72 (idx_main_v73 (ix2 e g)) = ix1 e := by
    funext a; match a with | ⟨0, _⟩ => rfl
  rw [hi]
  exact v28_at x1 e

/-- The bias row broadcast over the nodes, at node v and column g. -/
theorem v79_at (v : Fin 50000) (g : Fin 64) : val_main_v79 (F := Ideal) x7 (ix2 v g) = x7 (ix1 g) := by
  rw [val_main_v79_apply, val_main_v78_apply]
  have hi : idx_main_v78 (idx_main_v79 (ix2 v g)) = ix1 g := by
    funext a; match a with | ⟨0, _⟩ => rfl
  rw [hi]

/-- The scatter-add of the scaled rows, at node v and column g. -/
theorem v77_at (v : Fin 50000) (g : Fin 64) :
    val_main_v77 (F := Ideal) x0 x1 x2 x3 x6 (ix2 v g)
      = (0 : EReal) + ∑ e ∈ edgesInto x1 v, (∑ k : Fin 128, hidden x0 x1 x2 x3 (ix2 (srcOf x1 e) k) * x6 (ix2 k g))
          * (dinv x1 (ix1 (srcOf x1 e)) * dinv x1 (ix1 (dstOf x1 e))) := by
  have h : val_main_v77 (F := Ideal) x0 x1 x2 x3 x6 (ix2 v g)
      = val_main_v75 (F := Ideal) (ix2 v g) + ∑ e ∈ edgesInto x1 v, val_main_v74 (F := Ideal) x0 x1 x2 x3 x6 (ix2 e g) :=
    Cert.GatherScatter.reference_scatterAdd_rows64_apply (val_main_v75 (F := Ideal)) (val_main_v76 (F := Ideal) x1)
      (val_main_v74 (F := Ideal) x0 x1 x2 x3 x6) v g
  have hz : val_main_v75 (F := Ideal) (ix2 v g) = (0 : EReal) := by
    rw [val_main_v75_apply, val_main_cst_13_apply]; exact Ideal.ofBits_zero_f32
  rw [h, hz]
  refine congrArg (fun t => (0 : EReal) + t) (Finset.sum_congr rfl fun e _ => ?_)
  rw [val_main_v74_apply]
  show val_main_v71 (F := Ideal) x0 x1 x2 x3 x6 (ix2 e g) * val_main_v73 (F := Ideal) x1 (ix2 e g) = _
  rw [v71_at, v73_at]

/-- SIGMA AT AN INDEX. -/
theorem sigma_at (v : Fin 50000) (g : Fin 64) :
    val_main_v80 (F := Ideal) x0 x1 x2 x3 x6 x7 (ix2 v g)
      = ((0 : EReal) + ∑ e ∈ edgesInto x1 v, (∑ k : Fin 128, hidden x0 x1 x2 x3 (ix2 (srcOf x1 e) k) * x6 (ix2 k g))
          * (dinv x1 (ix1 (srcOf x1 e)) * dinv x1 (ix1 (dstOf x1 e)))) + x7 (ix1 g) := by
  rw [val_main_v80_apply]
  show val_main_v77 (F := Ideal) x0 x1 x2 x3 x6 (ix2 v g) + val_main_v79 (F := Ideal) x7 (ix2 v g) = _
  rw [v77_at, v79_at]

end Cert.ReferenceIdeal.RefIdx

end
-- ==== Proof.LayoutReads.lean ====
/-
  Layout operations read at an index: a list reshaped to a column or to a row, two matrices joined
  column-wise, two lists joined end to end and read as a row, and the cut of the left or the right half
  of the columns. Each reads, at an index, one entry of one operand.
-/
import proofs.«142467_j24335284699606_2_alg».proof.KernelIdeal
import Idealize.ShloMosaic.Lib.ValueIdx
import Idealize.ShloMosaic.Lib.ValueLayout
import Idealize.ShloMosaic.Lib.Pipeline.Value

noncomputable section

namespace Cert.LayoutReads

open Idealize.ShloMosaic Idealize.ShloMosaic.ValueIdx
open Cert.KernelIdeal (S50000 S50000x1 S128 S1x128 S64 S128x64 S128x128 S50000x64 S50000x128)

variable {α : Type}

/-! ## Reshapes that add a unit axis -/

/-- (L1) A list of `50000` entries reshaped to a column reads, at row `v`, the list's entry `v`. -/
theorem column_of_list_apply (h : S50000.ShapeCasts S50000x1) (X : S50000.Idx → α) (v : Fin 50000) :
    shapeCast S50000x1 X h (ix2 v (0 : Fin 1)) = X (ix1 v) :=
  shapeCast_apply X h _ _ (by
    rw [Shape.rowMajor_val_two, Shape.rowMajor_val_one]
    show v.val = v.val * 1 + 0
    omega)

/-- (L2) A list of `128` entries reshaped to a row reads, at column `k`, the list's entry `k`. -/
theorem row_of_list_apply (h : S128.ShapeCasts S1x128) (X : S128.Idx → α) (k : Fin 128) :
    shapeCast S1x128 X h (ix2 (0 : Fin 1) k) = X (ix1 k) :=
  shapeCast_a_1a_apply X h (0 : Fin 1) k

/-! ## The weights joined column-wise -/

/-- (L3), first half, for any column `c` whose number is `g < 64`: the joined matrix reads the first
    piece at `(k, g)`. -/
theorem joined_cols_left_of_eq (h : Shape.Concatenates [S128x64, S128x64] S128x128 1) (a4 a6 : S128x64.Idx → α)
    (k : Fin 128) (g : Fin 64) (c : Fin 128) (hc : c.val = g.val) :
    concatenate S128x128 1 [⟨S128x64, a4⟩, ⟨S128x64, a6⟩] h (ix2 k c) = a4 (ix2 k g) :=
  concatenate_pair_apply_left 1 a4 a6 h (ix2 k c) rfl (ix2 k g) (fun b => match b with
    | ⟨0, _⟩ => rfl
    | ⟨1, _⟩ => hc.symm)

/-- (L3), second half, for any column `c` whose number is `g + 64`: the joined matrix reads the second
    piece at `(k, g)`. -/
theorem joined_cols_right_of_eq (h : Shape.Concatenates [S128x64, S128x64] S128x128 1) (a4 a6 : S128x64.Idx → α)
    (k : Fin 128) (g : Fin 64) (c : Fin 128) (hc : c.val = g.val + 64) :
    concatenate S128x128 1 [⟨S128x64, a4⟩, ⟨S128x64, a6⟩] h (ix2 k c) = a6 (ix2 k g) :=
  concatenate_pair_apply_right 1 a4 a6 h (ix2 k c) rfl rfl (ix2 k g) (fun b => match b with
    | ⟨0, _⟩ => fun _ => rfl
    | ⟨1, _⟩ => fun hne => absurd rfl hne) hc.symm

/-- (L3), first half, at the column written out. -/
theorem joined_cols_left (h : Shape.Concatenates [S128x64, S128x64] S128x128 1) (a4 a6 : S128x64.Idx → α)
    (k : Fin 128) (g : Fin 64) :
    concatenate S128x128 1 [⟨S128x64, a4⟩, ⟨S128x64, a6⟩] h (ix2 k (⟨g.val, by omega⟩ : Fin 128)) = a4 (ix2 k g) :=
  joined_cols_left_of_eq h a4 a6 k g _ rfl

/-- (L3), second half, at the column written out. -/
theorem joined_cols_right (h : Shape.Concatenates [S128x64, S128x64] S128x128 1) (a4 a6 : S128x64.Idx → α)
    (k : Fin 128) (g : Fin 64) :
    concatenate S128x128 1 [⟨S128x64, a4⟩, ⟨S128x64, a6⟩] h (ix2 k (⟨g.val + 64, by omega⟩ : Fin 128)) = a6 (ix2 k g) :=
  joined_cols_right_of_eq h a4 a6 k g _ rfl

/-! ## The biases joined end to end, as a row -/

/-- The two bias lists joined end to end read, at an entry numbered `g < 64`, the first list at `g`. -/
theorem joined_list_left_of_eq (hc : Shape.Concatenates [S64, S64] S128 0) (a5 a7 : S64.Idx → α)
    (g : Fin 64) (c : Fin 128) (hcg : c.val = g.val) :
    concatenate S128 0 [⟨S64, a5⟩, ⟨S64, a7⟩] hc (ix1 c) = a5 (ix1 g) :=
  concatenate_pair_apply_left 0 a5 a7 hc (ix1 c) rfl (ix1 g) (fun b => match b with
    | ⟨0, _⟩ => hcg.symm)

/-- The two bias lists joined end to end read, at an entry numbered `g + 64`, the second list at `g`. -/
theorem joined_list_right_of_eq (hc : Shape.Concatenates [S64, S64] S128 0) (a5 a7 : S64.Idx → α)
    (g : Fin 64) (c : Fin 128) (hcg : c.val = g.val + 64) :
    concatenate S128 0 [⟨S64, a5⟩, ⟨S64, a7⟩] hc (ix1 c) = a7 (ix1 g) :=
  concatenate_pair_apply_right 0 a5 a7 hc (ix1 c) rfl rfl (ix1 g) (fun b => match b with
    | ⟨0, _⟩ => fun hne => absurd rfl hne) hcg.symm

/-- (L4), first half, for any column `c` whose number is `g < 64`. -/
theorem joined_row_left_of_eq (hc : Shape.Concatenates [S64, S64] S128 0) (hs : S128.ShapeCasts S1x128)
    (a5 a7 : S64.Idx → α) (g : Fin 64) (c : Fin 128) (hcg : c.val = g.val) :
    shapeCast S1x128 (concatenate S128 0 [⟨S64, a5⟩, ⟨S64, a7⟩] hc) hs (ix2 (0 : Fin 1) c) = a5 (ix1 g) :=
  (row_of_list_apply hs _ c).trans (joined_list_left_of_eq hc a5 a7 g c hcg)

/-- (L4), second half, for any column `c` whose number is `g + 64`. -/
theorem joined_row_right_of_eq (hc : Shape.Concatenates [S64, S64] S128 0) (hs : S128.ShapeCasts S1x128)
    (a5 a7 : S64.Idx → α) (g : Fin 64) (c : Fin 128) (hcg : c.val = g.val + 64) :
    shapeCast S1x128 (concatenate S128 0 [⟨S64, a5⟩, ⟨S64, a7⟩] hc) hs (ix2 (0 : Fin 1) c) = a7 (ix1 g) :=
  (row_of_list_apply hs _ c).trans (joined_list_right_of_eq hc a5 a7 g c hcg)

/-- (L4), first half, at the column written out. -/
theorem joined_row_left (hc : Shape.Concatenates [S64, S64] S128 0) (hs : S128.ShapeCasts S1x128)
    (a5 a7 : S64.Idx → α) (g : Fin 64) :
    shapeCast S1x128 (concatenate S128 0 [⟨S64, a5⟩, ⟨S64, a7⟩] hc) hs (ix2 (0 : Fin 1) (⟨g.val, by omega⟩ : Fin 128))
      = a5 (ix1 g) :=
  joined_row_left_of_eq hc hs a5 a7 g _ rfl

/-- (L4), second half, at the column written out. -/
theorem joined_row_right (hc : Shape.Concatenates [S64, S64] S128 0) (hs : S128.ShapeCasts S1x128)
    (a5 a7 : S64.Idx → α) (g : Fin 64) :
    shapeCast S1x128 (concatenate S128 0 [⟨S64, a5⟩, ⟨S64, a7⟩] hc) hs (ix2 (0 : Fin 1) (⟨g.val + 64, by omega⟩ : Fin 128))
      = a7 (ix1 g) :=
  joined_row_right_of_eq hc hs a5 a7 g _ rfl

/-! ## The two column cuts -/

/-- (L5), the cut of columns `0 … 63`, for any column `c` whose number is `g`. -/
theorem cut_left_of_eq (h : S50000x128.Slices ![0, 0] S50000x64) (X : S50000x128.Idx → α) (v : Fin 50000)
    (g : Fin 64) (c : Fin 128) (hc : c.val = g.val) :
    extractStridedSlice S50000x64 ![0, 0] X h (ix2 v g) = X (ix2 v c) :=
  extractStridedSlice_apply ![0, 0] X h (ix2 v g) (ix2 v c) (fun a => match a with
    | ⟨0, _⟩ => by show v.val = 0 + v.val; omega
    | ⟨1, _⟩ => by show c.val = 0 + g.val; omega)

/-- (L5), the cut of columns `64 … 127`, for any column `c` whose number is `g + 64`. -/
theorem cut_right_of_eq (h : S50000x128.Slices ![0, 64] S50000x64) (X : S50000x128.Idx → α) (v : Fin 50000)
    (g : Fin 64) (c : Fin 128) (hc : c.val = g.val + 64) :
    extractStridedSlice S50000x64 ![0, 64] X h (ix2 v g) = X (ix2 v c) :=
  extractStridedSlice_apply ![0, 64] X h (ix2 v g) (ix2 v c) (fun a => match a with
    | ⟨0, _⟩ => by show v.val = 0 + v.val; omega
    | ⟨1, _⟩ => by show c.val = 64 + g.val; omega)

/-- (L5), the cut of columns `0 … 63`, at the column written out. -/
theorem cut_left (h : S50000x128.Slices ![0, 0] S50000x64) (X : S50000x128.Idx → α) (v : Fin 50000) (g : Fin 64) :
    extractStridedSlice S50000x64 ![0, 0] X h (ix2 v g) = X (ix2 v (⟨g.val, by omega⟩ : Fin 128)) :=
  cut_left_of_eq h X v g _ rfl

/-- (L5), the cut of columns `64 … 127`, at the column written out. -/
theorem cut_right (h : S50000x128.Slices ![0, 64] S50000x64) (X : S50000x128.Idx → α) (v : Fin 50000) (g : Fin 64) :
    extractStridedSlice S50000x64 ![0, 64] X h (ix2 v g) = X (ix2 v (⟨g.val + 64, by omega⟩ : Fin 128)) :=
  cut_right_of_eq h X v g _ rfl

end Cert.LayoutReads
-- ==== Proof.KernelIndex.lean ====
import proofs.«142467_j24335284699606_2_alg».proof.Proof.KernelValue
import proofs.«142467_j24335284699606_2_alg».proof.Proof.GatherScatter
import proofs.«142467_j24335284699606_2_alg».proof.Proof.RefIndex
import proofs.«142467_j24335284699606_2_alg».proof.Proof.LayoutReads
import Idealize.ShloMosaic.Lib.ValueIdx
import Idealize.ShloMosaic.Lib.Pipeline.Value
import Idealize.ShloMosaic.PureOps.Ideal.Laws

noncomputable section

namespace Cert.KernelIdeal.KIdx

open Idealize.ShloMosaic Idealize.ShloMosaic.ValueIdx
open Cert.KernelIdeal Cert.KernelIdeal.Gen
open Cert.ReferenceIdeal.RefIdx (srcOf edgesInto dinv)

/-- (K1) The per-node scale as a column, read at row `u`, is the scale of node `u`. -/
theorem scaleCol_apply (a1 : IVec S2x800000 32) (u : Fin 50000) :
    KV.scaleCol a1 (ix2 u (0 : Fin 1)) = dinv a1 (ix1 u) :=
  Cert.LayoutReads.column_of_list_apply _ _ u

/-- The zero array an aggregation starts from reads `0` everywhere. -/
theorem zero_splat_apply (i : S50000x128.Idx) :
    broadcastInDim S50000x128 ![] bcast_S_S50000x128 (constant (F := Ideal) S_ .f32 0x00000000#32) i = (0 : EReal) :=
  (broadcastInDim_apply _ bcast_S_S50000x128 (constant (F := Ideal) S_ .f32 0x00000000#32) i (fun a => a.elim0)
    (fun a => a.elim0)).trans Ideal.ofBits_zero_f32

/-- (K2) One aggregation read at `(v, k)`: zero plus the sum, over the edges into node `v`, of the
    operand's row at the edge's source node. -/
theorem agg_apply (a1 : IVec S2x800000 32) (X : S50000x128.Idx → EReal) (v : Fin 50000) (k : Fin 128) :
    KV.agg a1 X (ix2 v k) = (0 : EReal) + ∑ e ∈ edgesInto a1 v, X (ix2 (srcOf a1 e) k) := by
  unfold KV.agg
  refine (Cert.GatherScatter.kernel_scatterAdd_rows128_apply _ _ _ v k).trans ?_
  rw [zero_splat_apply]
  refine congrArg (fun t => (0 : EReal) + t) (Finset.sum_congr rfl fun e _ => ?_)
  exact Cert.GatherScatter.kernel_gather_rows128_apply X _ e k

/-- (K3) The second hidden array at `(u, k)`: the aggregated scaled product, scaled by the node's
    factor, plus the bias, clamped below at zero, scaled by the node's factor again. -/
theorem H2_apply (a0 : S50000x128.Idx → EReal) (a1 : IVec S2x800000 32) (a2 : S128x128.Idx → EReal)
    (a3 : S128.Idx → EReal) (u : Fin 50000) (k : Fin 128) :
    KV.H2 a0 a1 a2 a3 (ix2 u k)
      = max (((0 : EReal) + ∑ e ∈ edgesInto a1 u,
                (∑ k' : Fin 128, a0 (ix2 (srcOf a1 e) k') * a2 (ix2 k' k)) * dinv a1 (ix1 (srcOf a1 e)))
              * dinv a1 (ix1 u) + a3 (ix1 k)) 0 * dinv a1 (ix1 u) := by
  show max (KV.agg a1 (Regions.R0 a0 a2 (KV.scaleCol a1)) (ix2 u k) * KV.scaleCol a1 (ix2 u (0 : Fin 1))
      + shapeCast S1x128 a3 _ (ix2 (0 : Fin 1) k)) 0 * KV.scaleCol a1 (ix2 u (0 : Fin 1)) = _
  rw [scaleCol_apply, Cert.LayoutReads.row_of_list_apply, agg_apply]
  refine congrArg (fun t => max (((0 : EReal) + t) * dinv a1 (ix1 u) + a3 (ix1 k)) 0 * dinv a1 (ix1 u))
    (Finset.sum_congr rfl fun e _ => ?_)
  show (∑ k' : Fin 128, a0 (ix2 (srcOf a1 e) k') * a2 (ix2 k' k)) * KV.scaleCol a1 (ix2 (srcOf a1 e) (0 : Fin 1)) = _
  rw [scaleCol_apply]

/-- (K4) The first (left-half) result at `(v, g)`, with the second hidden array still named. -/
theorem mu_apply (a0 : S50000x128.Idx → EReal) (a1 : IVec S2x800000 32) (a2 : S128x128.Idx → EReal)
    (a3 : S128.Idx → EReal) (a4 : S128x64.Idx → EReal) (a5 : S64.Idx → EReal) (a6 : S128x64.Idx → EReal)
    (a7 : S64.Idx → EReal) (v : Fin 50000) (g : Fin 64) :
    extractStridedSlice S50000x64 ![0, 0] (KV.KOut a0 a1 a2 a3 a4 a5 a6 a7) slices_S50000x128_S50000x64_0_0 (ix2 v g)
      = (∑ k : Fin 128, (((0 : EReal) + ∑ e ∈ edgesInto a1 v, KV.H2 a0 a1 a2 a3 (ix2 (srcOf a1 e) k)) * dinv a1 (ix1 v))
          * a4 (ix2 k g)) + a5 (ix1 g) := by
  rw [Cert.LayoutReads.cut_left]
  show (∑ k : Fin 128, (KV.agg a1 (KV.H2 a0 a1 a2 a3) (ix2 v k) * KV.scaleCol a1 (ix2 v (0 : Fin 1)))
      * KV.wcat a4 a6 (ix2 k (⟨g.val, by omega⟩ : Fin 128))) + KV.bcat a5 a7 (ix2 (0 : Fin 1) (⟨g.val, by omega⟩ : Fin 128)) = _
  rw [scaleCol_apply]
  unfold KV.wcat KV.bcat
  rw [Cert.LayoutReads.joined_row_left]
  refine congrArg (fun t => t + a5 (ix1 g)) (Finset.sum_congr rfl fun k _ => ?_)
  rw [agg_apply, Cert.LayoutReads.joined_cols_left]

/-- (K4) The first (left-half) result at `(v, g)`, fully written out over the arguments. -/
theorem mu_apply_expanded (a0 : S50000x128.Idx → EReal) (a1 : IVec S2x800000 32) (a2 : S128x128.Idx → EReal)
    (a3 : S128.Idx → EReal) (a4 : S128x64.Idx → EReal) (a5 : S64.Idx → EReal) (a6 : S128x64.Idx → EReal)
    (a7 : S64.Idx → EReal) (v : Fin 50000) (g : Fin 64) :
    extractStridedSlice S50000x64 ![0, 0] (KV.KOut a0 a1 a2 a3 a4 a5 a6 a7) slices_S50000x128_S50000x64_0_0 (ix2 v g)
      = (∑ k : Fin 128, (((0 : EReal) + ∑ e ∈ edgesInto a1 v,
            max (((0 : EReal) + ∑ e' ∈ edgesInto a1 (srcOf a1 e),
                    (∑ k' : Fin 128, a0 (ix2 (srcOf a1 e') k') * a2 (ix2 k' k)) * dinv a1 (ix1 (srcOf a1 e')))
                  * dinv a1 (ix1 (srcOf a1 e)) + a3 (ix1 k)) 0 * dinv a1 (ix1 (srcOf a1 e)))
          * dinv a1 (ix1 v)) * a4 (ix2 k g)) + a5 (ix1 g) := by
  rw [mu_apply]
  simp only [H2_apply]

/-- (K5) The second (right-half) result at `(v, g)`, with the second hidden array still named. -/
theorem sigma_apply (a0 : S50000x128.Idx → EReal) (a1 : IVec S2x800000 32) (a2 : S128x128.Idx → EReal)
    (a3 : S128.Idx → EReal) (a4 : S128x64.Idx → EReal) (a5 : S64.Idx → EReal) (a6 : S128x64.Idx → EReal)
    (a7 : S64.Idx → EReal) (v : Fin 50000) (g : Fin 64) :
    extractStridedSlice S50000x64 ![0, 64] (KV.KOut a0 a1 a2 a3 a4 a5 a6 a7) slices_S50000x128_S50000x64_0_64 (ix2 v g)
      = (∑ k : Fin 128, (((0 : EReal) + ∑ e ∈ edgesInto a1 v, KV.H2 a0 a1 a2 a3 (ix2 (srcOf a1 e) k)) * dinv a1 (ix1 v))
          * a6 (ix2 k g)) + a7 (ix1 g) := by
  rw [Cert.LayoutReads.cut_right]
  show (∑ k : Fin 128, (KV.agg a1 (KV.H2 a0 a1 a2 a3) (ix2 v k) * KV.scaleCol a1 (ix2 v (0 : Fin 1)))
      * KV.wcat a4 a6 (ix2 k (⟨g.val + 64, by omega⟩ : Fin 128))) + KV.bcat a5 a7 (ix2 (0 : Fin 1) (⟨g.val + 64, by omega⟩ : Fin 128)) = _
  rw [scaleCol_apply]
  unfold KV.wcat KV.bcat
  rw [Cert.LayoutReads.joined_row_right]
  refine congrArg (fun t => t + a7 (ix1 g)) (Finset.sum_congr rfl fun k _ => ?_)
  rw [agg_apply, Cert.LayoutReads.joined_cols_right]

/-- (K5) The second (right-half) result at `(v, g)`, fully written out over the arguments. -/
theorem sigma_apply_expanded (a0 : S50000x128.Idx → EReal) (a1 : IVec S2x800000 32) (a2 : S128x128.Idx → EReal)
    (a3 : S128.Idx → EReal) (a4 : S128x64.Idx → EReal) (a5 : S64.Idx → EReal) (a6 : S128x64.Idx → EReal)
    (a7 : S64.Idx → EReal) (v : Fin 50000) (g : Fin 64) :
    extractStridedSlice S50000x64 ![0, 64] (KV.KOut a0 a1 a2 a3 a4 a5 a6 a7) slices_S50000x128_S50000x64_0_64 (ix2 v g)
      = (∑ k : Fin 128, (((0 : EReal) + ∑ e ∈ edgesInto a1 v,
            max (((0 : EReal) + ∑ e' ∈ edgesInto a1 (srcOf a1 e),
                    (∑ k' : Fin 128, a0 (ix2 (srcOf a1 e') k') * a2 (ix2 k' k)) * dinv a1 (ix1 (srcOf a1 e')))
                  * dinv a1 (ix1 (srcOf a1 e)) + a3 (ix1 k)) 0 * dinv a1 (ix1 (srcOf a1 e)))
          * dinv a1 (ix1 v)) * a6 (ix2 k g)) + a7 (ix1 g) := by
  rw [sigma_apply]
  simp only [H2_apply]

end Cert.KernelIdeal.KIdx
-- ==== Proof.RealAlgebra.lean ====
/-
  Extended-real algebra for real-valued data. The extended reals do not distribute a factor over a
  sum at the infinities, so every law here is stated for real numbers cast into the extended reals:
  the casts are pushed outward, the law is proved in ℝ, and the result is cast back.
-/
import Idealize.ShloMosaic.PureOps.Ideal
import Idealize.ShloMosaic.PureOps.Ideal.Laws

noncomputable section

namespace Cert.GcnAlgebra

open Idealize.ShloMosaic

/-! ### Casts -/

/-- The cast of a finite real sum is the sum of the casts. -/
theorem coe_finset_sum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- The maximum of two casts is the cast of the maximum. -/
theorem max_coe (a b : ℝ) : max (a : EReal) (b : EReal) = ((max a b : ℝ) : EReal) :=
  (EReal.coe_strictMono.monotone.map_max (a := a) (b := b)).symm

/-- Zero is the cast of zero. -/
theorem zero_eq_coe : (0 : EReal) = ((0 : ℝ) : EReal) := rfl

/-- One is the cast of one. -/
theorem one_eq_coe : (1 : EReal) = ((1 : ℝ) : EReal) := rfl

/-- The positive part of a cast is the cast of the positive part. -/
theorem max_zero_real (x : ℝ) : max (x : EReal) 0 = ((max x 0 : ℝ) : EReal) :=
  max_coe x 0

/-! ### The two laws -/

/-- LAYER ONE: a factor that is constant over the summation set moves out of the sum. -/
theorem layer_one {ε : Type} (S : Finset ε) (a cs ct : ε → ℝ) (cv : ℝ) (h : ∀ e ∈ S, ct e = cv) :
    (0 : EReal) + ∑ e ∈ S, (a e : EReal) * ((cs e : EReal) * (ct e : EReal))
      = ((0 : EReal) + ∑ e ∈ S, (a e : EReal) * (cs e : EReal)) * (cv : EReal) := by
  have hreal : (∑ e ∈ S, a e * (cs e * cv)) = (∑ e ∈ S, a e * cs e) * cv := by
    rw [Finset.sum_mul]; exact Finset.sum_congr rfl fun e _ => by ring
  have hcast := congrArg (fun r : ℝ => (r : EReal)) hreal
  simp only [EReal.coe_mul, coe_finset_sum] at hcast
  simp only [zero_add]
  rw [← hcast]
  exact Finset.sum_congr rfl fun e he => by rw [h e he]

/-- LAYER TWO: a product with a fixed vector W, taken inside the sum over S, moves across it:
    summing over S the rows' products with W, each scaled by cs e · cv, is the product with W of
    the scaled sum of the rows. -/
theorem layer_two {ε : Type} (S : Finset ε) (hd : ε → Fin 128 → ℝ) (W : Fin 128 → ℝ) (cs ct : ε → ℝ) (cv : ℝ)
    (h : ∀ e ∈ S, ct e = cv) :
    (0 : EReal) + ∑ e ∈ S, ((0 : EReal) + ∑ k : Fin 128, (hd e k : EReal) * (W k : EReal)) * ((cs e : EReal) * (ct e : EReal))
      = (0 : EReal) + ∑ k : Fin 128, (((0 : EReal) + ∑ e ∈ S, (hd e k : EReal) * (cs e : EReal)) * (cv : EReal)) * (W k : EReal) := by
  have hreal : (∑ e ∈ S, (∑ k : Fin 128, hd e k * W k) * (cs e * cv))
      = ∑ k : Fin 128, ((∑ e ∈ S, hd e k * cs e) * cv) * W k := by
    calc (∑ e ∈ S, (∑ k : Fin 128, hd e k * W k) * (cs e * cv))
        = ∑ e ∈ S, ∑ k : Fin 128, hd e k * cs e * cv * W k := by
          refine Finset.sum_congr rfl fun e _ => ?_
          rw [Finset.sum_mul]; exact Finset.sum_congr rfl fun k _ => by ring
      _ = ∑ k : Fin 128, ∑ e ∈ S, hd e k * cs e * cv * W k := Finset.sum_comm
      _ = ∑ k : Fin 128, ((∑ e ∈ S, hd e k * cs e) * cv) * W k := by
          refine Finset.sum_congr rfl fun k _ => ?_
          rw [Finset.sum_mul, Finset.sum_mul]
  have hcast := congrArg (fun r : ℝ => (r : EReal)) hreal
  simp only [EReal.coe_mul, coe_finset_sum] at hcast
  simp only [zero_add]
  rw [← hcast]
  exact Finset.sum_congr rfl fun e he => by rw [h e he]

/-- LAYER TWO, with the products with W read as bare sums (no leading zero term) and the sums over S
    started from zero. -/
theorem layer_two' {ε : Type} (S : Finset ε) (hd : ε → Fin 128 → ℝ) (W : Fin 128 → ℝ) (cs ct : ε → ℝ) (cv : ℝ)
    (h : ∀ e ∈ S, ct e = cv) :
    (0 : EReal) + ∑ e ∈ S, (∑ k : Fin 128, (hd e k : EReal) * (W k : EReal)) * ((cs e : EReal) * (ct e : EReal))
      = ∑ k : Fin 128, (((0 : EReal) + ∑ e ∈ S, (hd e k : EReal) * (cs e : EReal)) * (cv : EReal)) * (W k : EReal) := by
  have e := layer_two S hd W cs ct cv h
  simp only [zero_add] at e ⊢
  exact e

/-! ### Constants and the per-node scale -/

/-- The pattern of 1.0 denotes 1. -/
theorem one_eq : Ideal.ofBits .f32 0x3F800000#32 = (1 : EReal) := by
  simp [Ideal.ofBits, Ideal.ieee, -EReal.coe_mul]; norm_num

/-- The pattern of +0.0 denotes 0. -/
theorem zero_eq : Ideal.ofBits .f32 0x00000000#32 = (0 : EReal) := Ideal.ofBits_zero_f32

/-- The reciprocal square root of a positive real is the real 1/√x. -/
theorem rsqrt_coe_pos (x : ℝ) (hx : 0 < x) : Ideal.rsqrt (x : EReal) = (((Real.sqrt x)⁻¹ : ℝ) : EReal) := by
  have e : Ideal.rsqrt (x : EReal)
      = if x < 0 then ⊥ else if x = 0 then ⊤ else (((Real.sqrt x)⁻¹ : ℝ) : EReal) := rfl
  rw [e, if_neg (not_lt.2 hx.le), if_neg hx.ne']

/-- A count of ones, floored at one, is the real number max |S| 1. -/
theorem deg_eq {ε : Type} (S : Finset ε) :
    max ((0 : EReal) + ∑ e ∈ S, (1 : EReal)) 1 = ((max (S.card : ℝ) 1 : ℝ) : EReal) := by
  have hs : (0 : EReal) + ∑ e ∈ S, (1 : EReal) = ((S.card : ℝ) : EReal) := by
    rw [zero_add, one_eq_coe, ← coe_finset_sum, Finset.sum_const, nsmul_eq_mul, mul_one]
  rw [hs, one_eq_coe, max_coe]

/-- THE PER-NODE SCALE: the reciprocal square root of the floored count is the real 1/√(max |S| 1). -/
theorem rsqrt_deg {ε : Type} (S : Finset ε) :
    Ideal.rsqrt (max ((0 : EReal) + ∑ e ∈ S, (1 : EReal)) 1)
      = (((Real.sqrt (max (S.card : ℝ) 1))⁻¹ : ℝ) : EReal) := by
  rw [deg_eq, rsqrt_coe_pos _ (lt_of_lt_of_le one_pos (le_max_right _ _))]

/-- The per-node scale is a real number. -/
theorem rsqrt_deg_real {ε : Type} (S : Finset ε) :
    ∃ r : ℝ, Ideal.rsqrt (max ((0 : EReal) + ∑ e ∈ S, (1 : EReal)) 1) = (r : EReal) :=
  ⟨_, rsqrt_deg S⟩

/-- The same with the ones and the zero spelled as the printed patterns. -/
theorem rsqrt_deg_ofBits {ε : Type} (S : Finset ε) :
    Ideal.rsqrt (max (Ideal.ofBits .f32 0x00000000#32 + ∑ e ∈ S, Ideal.ofBits .f32 0x3F800000#32) (Ideal.ofBits .f32 0x3F800000#32))
      = (((Real.sqrt (max (S.card : ℝ) 1))⁻¹ : ℝ) : EReal) := by
  rw [one_eq, zero_eq, rsqrt_deg]

end Cert.GcnAlgebra

end
-- ==== Proof.BridgeAlgebra.lean ====
/-
  The two-layer identity, over abstract edge and node types, all data real numbers cast into the
  extended reals. The reference scales each gathered row by the product of the two end nodes' scales
  inside the edge sum; the kernel scales the rows by the source node's scale before the edge sum and
  the sum by the destination node's scale after it, and moves the head's product with its weight
  column across the edge sum. On the edges into a node the destination is that node, so the
  destination's scale is constant over the sum and the two agree (the laws of RealAlgebra); the
  rectifier sits between the layers and is the same on both sides.
-/
import proofs.«142467_j24335284699606_2_alg».proof.Proof.RealAlgebra

noncomputable section

namespace Cert.GcnAlgebra

variable {ε ν : Type} (S : ν → Finset ε) (σ τ : ε → ν) (x : ν → Fin 128 → ℝ) (W1 : Fin 128 → Fin 128 → ℝ)
  (b1 : Fin 128 → ℝ) (d : ν → ℝ) (Wm : Fin 128 → ℝ) (bm : ℝ)

/-! ### The two sides, in the association order each program computes -/

/-- The dense transform: row u of x times column k of W1. -/
def lin (u : ν) (k : Fin 128) : EReal := ∑ k' : Fin 128, ((x u k' : ℝ) : EReal) * ((W1 k' k : ℝ) : EReal)

/-- The reference's layer one: rows scaled edge by edge, summed over the edges into u, plus the bias. -/
def refOut1 (u : ν) (k : Fin 128) : EReal :=
  ((0 : EReal) + ∑ e ∈ S u, lin x W1 (σ e) k * (((d (σ e) : ℝ) : EReal) * ((d (τ e) : ℝ) : EReal))) + ((b1 k : ℝ) : EReal)

/-- The reference's hidden state. -/
def refHid (u : ν) (k : Fin 128) : EReal := max (refOut1 S σ τ x W1 b1 d u k) 0

/-- The reference's head, one output column with weights Wm and bias bm. -/
def refOut (v : ν) : EReal :=
  ((0 : EReal) + ∑ e ∈ S v, (∑ k : Fin 128, refHid S σ τ x W1 b1 d (σ e) k * ((Wm k : ℝ) : EReal))
      * (((d (σ e) : ℝ) : EReal) * ((d (τ e) : ℝ) : EReal))) + ((bm : ℝ) : EReal)

/-- The kernel's pre-scaled rows. -/
def kerH0 (u : ν) (k : Fin 128) : EReal := lin x W1 u k * ((d u : ℝ) : EReal)

/-- The kernel's first edge sum. -/
def kerA1 (u : ν) (k : Fin 128) : EReal := (0 : EReal) + ∑ e ∈ S u, kerH0 x W1 d (σ e) k

/-- The kernel's hidden state, pre-scaled for the second edge sum. -/
def kerH2 (u : ν) (k : Fin 128) : EReal :=
  max (kerA1 S σ x W1 d u k * ((d u : ℝ) : EReal) + ((b1 k : ℝ) : EReal)) 0 * ((d u : ℝ) : EReal)

/-- The kernel's head. -/
def kerOut (v : ν) : EReal :=
  (∑ k : Fin 128, (((0 : EReal) + ∑ e ∈ S v, kerH2 S σ x W1 b1 d (σ e) k) * ((d v : ℝ) : EReal)) * ((Wm k : ℝ) : EReal))
    + ((bm : ℝ) : EReal)

/-! ### Real twins -/

def linR (u : ν) (k : Fin 128) : ℝ := ∑ k' : Fin 128, x u k' * W1 k' k
def a1R (u : ν) (k : Fin 128) : ℝ := ∑ e ∈ S u, linR x W1 (σ e) k * d (σ e)
def out1R (u : ν) (k : Fin 128) : ℝ := a1R S σ x W1 d u k * d u + b1 k
def hidR (u : ν) (k : Fin 128) : ℝ := max (out1R S σ x W1 b1 d u k) 0

theorem lin_eq (u : ν) (k : Fin 128) : lin x W1 u k = ((linR x W1 u k : ℝ) : EReal) := by
  unfold lin linR
  rw [coe_finset_sum]
  exact Finset.sum_congr rfl fun k' _ => (EReal.coe_mul _ _).symm

theorem kerA1_eq (u : ν) (k : Fin 128) : kerA1 S σ x W1 d u k = ((a1R S σ x W1 d u k : ℝ) : EReal) := by
  unfold kerA1 a1R kerH0
  rw [zero_add, coe_finset_sum]
  exact Finset.sum_congr rfl fun e _ => by rw [lin_eq, ← EReal.coe_mul]

/-- Layer one: the reference's edge-by-edge scaling is the kernel's scaling before and after the sum. -/
theorem refOut1_eq (hτ : ∀ v, ∀ e ∈ S v, τ e = v) (u : ν) (k : Fin 128) :
    refOut1 S σ τ x W1 b1 d u k = kerA1 S σ x W1 d u k * ((d u : ℝ) : EReal) + ((b1 k : ℝ) : EReal) := by
  have h := layer_one (S u) (fun e => linR x W1 (σ e) k) (fun e => d (σ e)) (fun e => d (τ e)) (d u)
    (fun e he => by rw [hτ u e he])
  beta_reduce at h
  unfold refOut1 kerA1 kerH0
  simp only [lin_eq]
  rw [h]

theorem refOut1_coe (hτ : ∀ v, ∀ e ∈ S v, τ e = v) (u : ν) (k : Fin 128) :
    refOut1 S σ τ x W1 b1 d u k = ((out1R S σ x W1 b1 d u k : ℝ) : EReal) := by
  rw [refOut1_eq S σ τ x W1 b1 d hτ, kerA1_eq]
  unfold out1R
  rw [EReal.coe_add, EReal.coe_mul]

/-- The reference's hidden state is a real number. -/
theorem refHid_coe (hτ : ∀ v, ∀ e ∈ S v, τ e = v) (u : ν) (k : Fin 128) :
    refHid S σ τ x W1 b1 d u k = ((hidR S σ x W1 b1 d u k : ℝ) : EReal) := by
  unfold refHid hidR
  rw [refOut1_coe S σ τ x W1 b1 d hτ, max_zero_real]

/-- The kernel's pre-scaled hidden state is the same real hidden state times the node's scale. -/
theorem kerH2_coe (u : ν) (k : Fin 128) :
    kerH2 S σ x W1 b1 d u k = ((hidR S σ x W1 b1 d u k : ℝ) : EReal) * ((d u : ℝ) : EReal) := by
  unfold kerH2 hidR out1R
  rw [kerA1_eq, ← EReal.coe_mul, ← EReal.coe_add, max_zero_real]

/-- THE TWO-LAYER IDENTITY. -/
theorem two_layer (hτ : ∀ v, ∀ e ∈ S v, τ e = v) (v : ν) :
    kerOut S σ x W1 b1 d Wm bm v = refOut S σ τ x W1 b1 d Wm bm v := by
  have h := layer_two' (S v) (fun e k => hidR S σ x W1 b1 d (σ e) k) Wm (fun e => d (σ e)) (fun e => d (τ e)) (d v)
    (fun e he => by rw [hτ v e he])
  beta_reduce at h
  unfold kerOut refOut
  simp only [kerH2_coe, refHid_coe S σ τ x W1 b1 d hτ]
  rw [h]

/-- The two-layer identity with every auxiliary definition expanded. -/
theorem two_layer_unfolded (hτ : ∀ v, ∀ e ∈ S v, τ e = v) (v : ν) :
    (∑ k : Fin 128, (((0 : EReal) + ∑ e ∈ S v,
        max (((0 : EReal) + ∑ e' ∈ S (σ e), (∑ k' : Fin 128, ((x (σ e') k' : ℝ) : EReal) * ((W1 k' k : ℝ) : EReal)) * ((d (σ e') : ℝ) : EReal))
              * ((d (σ e) : ℝ) : EReal) + ((b1 k : ℝ) : EReal)) 0 * ((d (σ e) : ℝ) : EReal))
        * ((d v : ℝ) : EReal)) * ((Wm k : ℝ) : EReal)) + ((bm : ℝ) : EReal)
      = ((0 : EReal) + ∑ e ∈ S v, (∑ k : Fin 128,
          max (((0 : EReal) + ∑ e' ∈ S (σ e), (∑ k' : Fin 128, ((x (σ e') k' : ℝ) : EReal) * ((W1 k' k : ℝ) : EReal))
                * (((d (σ e') : ℝ) : EReal) * ((d (τ e') : ℝ) : EReal))) + ((b1 k : ℝ) : EReal)) 0
            * ((Wm k : ℝ) : EReal))
          * (((d (σ e) : ℝ) : EReal) * ((d (τ e) : ℝ) : EReal))) + ((bm : ℝ) : EReal) :=
  two_layer S σ τ x W1 b1 d Wm bm hτ v

end Cert.GcnAlgebra

end
-- ==== Proof.ScaleReal.lean ====
/-
  The per-node scale is a positive real number. Both programs compute it as the reciprocal square root
  of a scatter-add of ones into zeros, floored at one: at node i it is 1 / √(max n 1), n the number of
  edges landing at i. Proved over any shapes, then stated for the kernel's and for the reference's
  records, whose scales agree.
-/
import proofs.«142467_j24335284699606_2_alg».proof.KernelIdeal
import proofs.«142467_j24335284699606_2_alg».proof.ReferenceIdeal
import proofs.«142467_j24335284699606_2_alg».proof.Proof.RealAlgebra
import Idealize.ShloMosaic.PureOps.Ideal
import Idealize.ShloMosaic.Lib.Pipeline.Value
import Idealize.ShloMosaic.Lib.ValueIdx

noncomputable section

open scoped BigOperators
open Idealize.ShloMosaic Idealize.ShloMosaic.ValueIdx

namespace Cert.ScaleReal

/-! ## The computation, over any shapes -/

/-- A scatter-add of ones into zeros, floored at one, under the reciprocal square root, read at `i`: the real
    `1 / √(max n 1)`, `n` the number of updates landing at `i`. -/
theorem scale_apply_generic {s si u : Shape} {w : Nat} (d : ScatterDims s si u)
    (X B : FVec Ideal s .f32) (U : FVec Ideal u .f32) (col : IVec si w) (i : s.Idx)
    [DecidablePred fun j : u.Idx => d.resultIdx? j col = some i]
    (hX : X i = Ideal.ofBits .f32 0x00000000#32) (hB : B i = Ideal.ofBits .f32 0x3F800000#32)
    (hU : ∀ j, U j = Ideal.ofBits .f32 0x3F800000#32) :
    Host.rsqrt (F := Ideal) (maximumf (F := Ideal) (Host.scatterAdd (F := Ideal) d X col U) B) i
      = (((Real.sqrt (max ((Finset.univ.filter (fun j : u.Idx => d.resultIdx? j col = some i)).card : ℝ) 1))⁻¹ : ℝ) : EReal) := by
  have e1 : Host.rsqrt (F := Ideal) (maximumf (F := Ideal) (Host.scatterAdd (F := Ideal) d X col U) B) i
      = Ideal.rsqrt (max (Ideal.hostScatterAdd d X col U i) (B i)) := rfl
  rw [e1]
  unfold Ideal.hostScatterAdd
  rw [hX, hB]
  simp only [hU]
  rw [Cert.GcnAlgebra.rsqrt_deg_ofBits]
  congr!

/-! ## The kernel's per-node scale -/

section Kernel
open Cert.KernelIdeal
variable [Cert.KernelIdeal.Facts₀]

/-- The kernel's per-node scale as the program computes it from the column of target indices `col`: the
    reciprocal square root of the number of edges landing at the node (a scatter-add of ones into zeros),
    floored at one. -/
def kernelScale (col : IVec S850000x1 32) : FVec Ideal S50000 .f32 :=
  Host.rsqrt (F := Ideal) (maximumf (F := Ideal)
    (Host.scatterAdd (F := Ideal) scatter_S50000_S850000x1_S850000_n_0_0_1
      (broadcastInDim S50000 ![] Facts₀.bcast_S_S50000 (constant (F := Ideal) S_ .f32 0x00000000#32)) col
      (broadcastInDim S850000 ![] Facts₀.bcast_S_S850000 (constant (F := Ideal) S_ .f32 0x3F800000#32)))
    (broadcastInDim S50000 ![] Facts₀.bcast_S_S50000 (constant (F := Ideal) S_ .f32 0x3F800000#32)))

/-- The edges landing at node `i`. -/
def kernelEdges (col : IVec S850000x1 32) (i : S50000.Idx) : Finset S850000.Idx := by
  classical
  exact Finset.univ.filter (fun j => scatter_S50000_S850000x1_S850000_n_0_0_1.resultIdx? j col = some i)

/-- The scale as a real number: `1 / √(max (number of edges landing at i) 1)`. -/
def kernelScaleR (col : IVec S850000x1 32) (i : S50000.Idx) : ℝ :=
  (Real.sqrt (max ((kernelEdges col i).card : ℝ) 1))⁻¹

/-- (P2) The real scale is positive. -/
theorem kernelScaleR_pos (col : IVec S850000x1 32) (i : S50000.Idx) : 0 < kernelScaleR col i :=
  inv_pos.mpr (Real.sqrt_pos.mpr (lt_of_lt_of_le one_pos (le_max_right _ _)))

/-- The scale read at a node is that real number. -/
theorem kernelScale_apply (col : IVec S850000x1 32) (i : S50000.Idx) :
    kernelScale col i = ((kernelScaleR col i : ℝ) : EReal) := by
  have h0 : broadcastInDim S50000 ![] Facts₀.bcast_S_S50000 (constant (F := Ideal) S_ .f32 0x00000000#32) i
      = Ideal.ofBits .f32 0x00000000#32 :=
    broadcastInDim_apply _ Facts₀.bcast_S_S50000 _ i (fun a => a.elim0) (fun a => a.elim0)
  have h1 : broadcastInDim S50000 ![] Facts₀.bcast_S_S50000 (constant (F := Ideal) S_ .f32 0x3F800000#32) i
      = Ideal.ofBits .f32 0x3F800000#32 :=
    broadcastInDim_apply _ Facts₀.bcast_S_S50000 _ i (fun a => a.elim0) (fun a => a.elim0)
  have hu : ∀ j : S850000.Idx,
      broadcastInDim S850000 ![] Facts₀.bcast_S_S850000 (constant (F := Ideal) S_ .f32 0x3F800000#32) j
        = Ideal.ofBits .f32 0x3F800000#32 := fun j =>
    broadcastInDim_apply _ Facts₀.bcast_S_S850000 _ j (fun a => a.elim0) (fun a => a.elim0)
  unfold kernelScale kernelScaleR kernelEdges
  exact scale_apply_generic _ _ _ _ col i h0 h1 hu

/-- (P1) The scale at each node is a real number. -/
theorem kernelScale_real (col : IVec S850000x1 32) (i : S50000.Idx) : ∃ r : ℝ, kernelScale col i = (r : EReal) :=
  ⟨_, kernelScale_apply col i⟩

/-- (P1), function form. -/
theorem kernelScale_eq (col : IVec S850000x1 32) : kernelScale col = fun i => ((kernelScaleR col i : ℝ) : EReal) :=
  funext (kernelScale_apply col)

/-- (P1), function form, existential, with (P2). -/
theorem kernelScale_real_fun (col : IVec S850000x1 32) :
    ∃ r : S50000.Idx → ℝ, (∀ i, 0 < r i) ∧ kernelScale col = fun i => ((r i : ℝ) : EReal) :=
  ⟨kernelScaleR col, kernelScaleR_pos col, kernelScale_eq col⟩

/-- The column form of a per-node vector: its reshape to `[50000, 1]` read at `(v, 0)` is the vector at `v`. -/
theorem kernel_column_apply {α : Type} (x : S50000.Idx → α) (v : Fin 50000) :
    shapeCast S50000x1 x Facts₀.shapeCasts_S50000_S50000x1 (ix2 v 0) = x (ix1 v) :=
  shapeCast_apply x Facts₀.shapeCasts_S50000_S50000x1 (ix2 v 0) (ix1 v)
    (by rewrite [Shape.rowMajor_val_two, Shape.rowMajor_val_one]; show v.val = v.val * 1 + 0; omega)

/-- The kernel's scale in column form, read at `(v, 0)`: the real scale of node `v`. -/
theorem kernelScale_column_apply (col : IVec S850000x1 32) (v : Fin 50000) :
    shapeCast S50000x1 (kernelScale col) Facts₀.shapeCasts_S50000_S50000x1 (ix2 v 0)
      = ((kernelScaleR col (ix1 v) : ℝ) : EReal) := by
  rw [kernel_column_apply, kernelScale_apply]

end Kernel

/-! ## The reference's per-node scale -/

section Reference
open Cert.ReferenceIdeal
variable [Cert.ReferenceIdeal.Facts₀]

/-- The reference's per-node scale as the program computes it from the column of target indices `col`: the
    reciprocal square root of the number of edges landing at the node (a scatter-add of ones into zeros),
    floored at one. -/
def referenceScale (col : IVec S850000x1 32) : FVec Ideal S50000 .f32 :=
  Host.rsqrt (F := Ideal) (maximumf (F := Ideal)
    (Host.scatterAdd (F := Ideal) scatter_S50000_S850000x1_S850000_n_0_0_1
      (broadcastInDim S50000 ![] Facts₀.bcast_S_S50000 (constant (F := Ideal) S_ .f32 0x00000000#32)) col
      (broadcastInDim S850000 ![] Facts₀.bcast_S_S850000 (constant (F := Ideal) S_ .f32 0x3F800000#32)))
    (broadcastInDim S50000 ![] Facts₀.bcast_S_S50000 (constant (F := Ideal) S_ .f32 0x3F800000#32)))

/-- The edges landing at node `i`. -/
def referenceEdges (col : IVec S850000x1 32) (i : S50000.Idx) : Finset S850000.Idx := by
  classical
  exact Finset.univ.filter (fun j => scatter_S50000_S850000x1_S850000_n_0_0_1.resultIdx? j col = some i)

/-- The scale as a real number: `1 / √(max (number of edges landing at i) 1)`. -/
def referenceScaleR (col : IVec S850000x1 32) (i : S50000.Idx) : ℝ :=
  (Real.sqrt (max ((referenceEdges col i).card : ℝ) 1))⁻¹

/-- (P2) The real scale is positive. -/
theorem referenceScaleR_pos (col : IVec S850000x1 32) (i : S50000.Idx) : 0 < referenceScaleR col i :=
  inv_pos.mpr (Real.sqrt_pos.mpr (lt_of_lt_of_le one_pos (le_max_right _ _)))

/-- The scale read at a node is that real number. -/
theorem referenceScale_apply (col : IVec S850000x1 32) (i : S50000.Idx) :
    referenceScale col i = ((referenceScaleR col i : ℝ) : EReal) := by
  have h0 : broadcastInDim S50000 ![] Facts₀.bcast_S_S50000 (constant (F := Ideal) S_ .f32 0x00000000#32) i
      = Ideal.ofBits .f32 0x00000000#32 :=
    broadcastInDim_apply _ Facts₀.bcast_S_S50000 _ i (fun a => a.elim0) (fun a => a.elim0)
  have h1 : broadcastInDim S50000 ![] Facts₀.bcast_S_S50000 (constant (F := Ideal) S_ .f32 0x3F800000#32) i
      = Ideal.ofBits .f32 0x3F800000#32 :=
    broadcastInDim_apply _ Facts₀.bcast_S_S50000 _ i (fun a => a.elim0) (fun a => a.elim0)
  have hu : ∀ j : S850000.Idx,
      broadcastInDim S850000 ![] Facts₀.bcast_S_S850000 (constant (F := Ideal) S_ .f32 0x3F800000#32) j
        = Ideal.ofBits .f32 0x3F800000#32 := fun j =>
    broadcastInDim_apply _ Facts₀.bcast_S_S850000 _ j (fun a => a.elim0) (fun a => a.elim0)
  unfold referenceScale referenceScaleR referenceEdges
  exact scale_apply_generic _ _ _ _ col i h0 h1 hu

/-- (P1) The scale at each node is a real number. -/
theorem referenceScale_real (col : IVec S850000x1 32) (i : S50000.Idx) : ∃ r : ℝ, referenceScale col i = (r : EReal) :=
  ⟨_, referenceScale_apply col i⟩

/-- (P1), function form. -/
theorem referenceScale_eq (col : IVec S850000x1 32) : referenceScale col = fun i => ((referenceScaleR col i : ℝ) : EReal) :=
  funext (referenceScale_apply col)

/-- (P1), function form, existential, with (P2). -/
theorem referenceScale_real_fun (col : IVec S850000x1 32) :
    ∃ r : S50000.Idx → ℝ, (∀ i, 0 < r i) ∧ referenceScale col = fun i => ((r i : ℝ) : EReal) :=
  ⟨referenceScaleR col, referenceScaleR_pos col, referenceScale_eq col⟩

end Reference

/-! ## The two programs' scales agree -/

section Agree
variable [Cert.KernelIdeal.Facts₀] [Cert.ReferenceIdeal.Facts₀]

/-- Both programs compute the scale by the same operations over the same shapes. -/
theorem kernelScale_eq_referenceScale (col : IVec ⟨2, ![850000, 1]⟩ 32) : kernelScale col = referenceScale col := rfl

/-- The same for the real scales. -/
theorem kernelScaleR_eq_referenceScaleR (col : IVec ⟨2, ![850000, 1]⟩ 32) (i : (⟨1, ![50000]⟩ : Shape).Idx) :
    kernelScaleR col i = referenceScaleR col i := rfl

end Agree

end Cert.ScaleReal

end
-- ==== Proof.RefEdges.lean ====
/-
  Two facts about the reference's named stages. An edge into node v — one whose destination entry,
  read signed, is v — has wrapped, clamped destination v, because v is neither negative nor beyond
  the last node. And the per-node scale is a positive real number at every node: the reciprocal
  square root of the number of edges landing at the node, floored at one.
-/
import proofs.«142467_j24335284699606_2_alg».proof.Proof.RefIndex
import proofs.«142467_j24335284699606_2_alg».proof.Proof.ScaleReal

noncomputable section

namespace Cert.ReferenceIdeal.RefIdx

open Cert.ReferenceIdeal Cert.ReferenceIdeal.Gen Cert.ReferenceIdeal.Read Idealize.ShloMosaic Idealize.ShloMosaic.ValueIdx

variable (x1 : (⟨S2x800000, .i32⟩ : BufTy).Contents (Elt Ideal))

/-! ### The destination of an edge into a node -/

/-- A word that is non-negative read signed is left alone by the wrap of negative entries. -/
theorem wrap_of_nonneg (w : BitVec 32) (h : 0 ≤ w.toInt) :
    Scalar.select (IntOp.cmpi .slt w 0#32) (IntOp.addi w 50000#32) w = w := by
  have h0 : (0#32 : BitVec 32).toInt = 0 := by decide
  have hs : w.slt 0#32 = false := by
    unfold BitVec.slt; rw [h0]; exact decide_eq_false (not_lt.2 h)
  have hc : IntOp.cmpi .slt w 0#32 = 0#1 := by
    show BitVec.ofBool (w.slt 0#32) = 0#1
    rw [hs]; rfl
  rw [hc, select_zero]

/-- The destination column as the scatters read it, at edge e. -/
theorem dstCol_at (e : Fin 850000) : dstCol x1 (ix2 e 0) = val_main_v6 (F := Ideal) x1 (ix1 e) := by
  unfold dstCol
  rw [val_main_v9_apply]
  have hi : idx_main_v9 (ix2 e 0) = ix1 e := by
    funext a; match a with | ⟨0, _⟩ => rfl
  rw [hi]

/-- The wrapped destination column, at edge e. -/
theorem dstWCol_at (e : Fin 850000) :
    dstWCol x1 (ix2 e 0) = Scalar.select (IntOp.cmpi .slt (val_main_v6 (F := Ideal) x1 (ix1 e)) 0#32)
      (IntOp.addi (val_main_v6 (F := Ideal) x1 (ix1 e)) 50000#32) (val_main_v6 (F := Ideal) x1 (ix1 e)) := by
  unfold dstWCol
  rw [val_main_v26_apply]
  have hi : idx_main_v26 (ix2 e 0) = ix1 e := by
    funext a; match a with | ⟨0, _⟩ => rfl
  rw [hi, val_main_v25_apply, val_main_v22_apply, val_main_v24_apply, val_main_v21_apply, val_main_v23_apply,
    val_main_c_3_apply, val_main_c_4_apply]

/-- An edge into node v has wrapped, clamped destination v: its destination entry read signed is v,
    which is neither negative nor beyond the last node. -/
theorem dstOf_of_mem (v : Fin 50000) (e : Fin 850000) (he : e ∈ edgesInto x1 v) : dstOf x1 e = v := by
  rw [mem_edgesInto, dstCol_at] at he
  have hv := v.isLt
  apply Fin.ext
  rw [dstOf_val, dstWCol_at, wrap_of_nonneg _ (by rw [he]; omega), he]
  omega

/-- The same for every node and every edge into it. -/
theorem dstOf_edgesInto : ∀ v, ∀ e ∈ edgesInto x1 v, dstOf x1 e = v :=
  fun v e he => dstOf_of_mem x1 v e he

/-! ### The scale is real -/

/-- The per-node scale is the reciprocal square root of the floored count of edges landing at the node,
    computed from the destination column. -/
theorem dinv_eq_referenceScale : dinv x1 = Cert.ScaleReal.referenceScale (dstCol x1) := rfl

/-- The per-node scale as a real number. -/
def dinvR (i : S50000.Idx) : ℝ := Cert.ScaleReal.referenceScaleR (dstCol x1) i

theorem dinv_apply (i : S50000.Idx) : dinv x1 i = ((dinvR x1 i : ℝ) : EReal) := by
  rw [dinv_eq_referenceScale]; exact Cert.ScaleReal.referenceScale_apply (dstCol x1) i

theorem dinvR_pos (i : S50000.Idx) : 0 < dinvR x1 i := Cert.ScaleReal.referenceScaleR_pos (dstCol x1) i

theorem dinv_eq_coe : dinv x1 = fun i => ((dinvR x1 i : ℝ) : EReal) := funext (dinv_apply x1)

/-- The per-node scale is a real number at every node. -/
theorem dinv_real : ∃ r : S50000.Idx → ℝ, dinv x1 = fun i => ((r i : ℝ) : EReal) := ⟨dinvR x1, dinv_eq_coe x1⟩

end Cert.ReferenceIdeal.RefIdx

end
-- ==== Proof.BridgeRef.lean ====
/-
  The reference's two heads, read at an element, equal the expanded two-layer formula in the kernel's
  association order, when the arguments are real-valued: the reference's reading is rewritten to its
  sums over the edges into a node, the real witnesses are substituted, and the two-layer identity over
  real data closes the goal.
-/
import proofs.«142467_j24335284699606_2_alg».proof.Proof.RefIndex
import proofs.«142467_j24335284699606_2_alg».proof.Proof.BridgeAlgebra
import proofs.«142467_j24335284699606_2_alg».proof.Proof.RefEdges

noncomputable section

open scoped BigOperators

namespace Cert.Bridge

open Cert.ReferenceIdeal Cert.ReferenceIdeal.Gen Cert.ReferenceIdeal.Read Cert.ReferenceIdeal.RefIdx
  Idealize.ShloMosaic Idealize.ShloMosaic.ValueIdx

variable (a0 : (⟨S50000x128, .f32⟩ : BufTy).Contents (Elt Ideal)) (a1 : (⟨S2x800000, .i32⟩ : BufTy).Contents (Elt Ideal))
  (a2 : (⟨S128x128, .f32⟩ : BufTy).Contents (Elt Ideal)) (a3 : (⟨S128, .f32⟩ : BufTy).Contents (Elt Ideal))
  (a4 : (⟨S128x64, .f32⟩ : BufTy).Contents (Elt Ideal)) (a5 : (⟨S64, .f32⟩ : BufTy).Contents (Elt Ideal))
  (a6 : (⟨S128x64, .f32⟩ : BufTy).Contents (Elt Ideal)) (a7 : (⟨S64, .f32⟩ : BufTy).Contents (Elt Ideal))

theorem mu_expanded_of (v : Fin 50000) (g : Fin 64)
    (h0 : ∃ r0 : S50000x128.Idx → ℝ, a0 = fun i => ((r0 i : ℝ) : EReal))
    (h2 : ∃ r2 : S128x128.Idx → ℝ, a2 = fun i => ((r2 i : ℝ) : EReal))
    (h3 : ∃ r3 : S128.Idx → ℝ, a3 = fun i => ((r3 i : ℝ) : EReal))
    (h4 : ∃ r4 : S128x64.Idx → ℝ, a4 = fun i => ((r4 i : ℝ) : EReal))
    (h5 : ∃ r5 : S64.Idx → ℝ, a5 = fun i => ((r5 i : ℝ) : EReal))
    (hτ : ∀ v, ∀ e ∈ edgesInto a1 v, dstOf a1 e = v)
    (hd : ∃ r : S50000.Idx → ℝ, dinv a1 = fun i => ((r i : ℝ) : EReal)) :
    (∑ k : Fin 128, (((0 : EReal) + ∑ e ∈ edgesInto a1 v,
        max (((0 : EReal) + ∑ e' ∈ edgesInto a1 (srcOf a1 e),
              (∑ k' : Fin 128, a0 (ix2 (srcOf a1 e') k') * a2 (ix2 k' k)) * dinv a1 (ix1 (srcOf a1 e')))
            * dinv a1 (ix1 (srcOf a1 e)) + a3 (ix1 k)) 0 * dinv a1 (ix1 (srcOf a1 e)))
        * dinv a1 (ix1 v)) * a4 (ix2 k g)) + a5 (ix1 g)
      = val_main_v63 (F := Ideal) a0 a1 a2 a3 a4 a5 (ix2 v g) := by
  rw [mu_at]
  simp only [hidden_at, layer1_at]
  obtain ⟨r0, rfl⟩ := h0
  obtain ⟨r2, rfl⟩ := h2
  obtain ⟨r3, rfl⟩ := h3
  obtain ⟨r4, rfl⟩ := h4
  obtain ⟨r5, rfl⟩ := h5
  obtain ⟨d, hd'⟩ := hd
  simp only [hd']
  exact Cert.GcnAlgebra.two_layer_unfolded (edgesInto a1) (srcOf a1) (dstOf a1) (fun u k' => r0 (ix2 u k'))
    (fun k' k => r2 (ix2 k' k)) (fun k => r3 (ix1 k)) (fun u => d (ix1 u)) (fun k => r4 (ix2 k g)) (r5 (ix1 g)) hτ v

theorem sigma_expanded_of (v : Fin 50000) (g : Fin 64)
    (h0 : ∃ r0 : S50000x128.Idx → ℝ, a0 = fun i => ((r0 i : ℝ) : EReal))
    (h2 : ∃ r2 : S128x128.Idx → ℝ, a2 = fun i => ((r2 i : ℝ) : EReal))
    (h3 : ∃ r3 : S128.Idx → ℝ, a3 = fun i => ((r3 i : ℝ) : EReal))
    (h6 : ∃ r4 : S128x64.Idx → ℝ, a6 = fun i => ((r4 i : ℝ) : EReal))
    (h7 : ∃ r5 : S64.Idx → ℝ, a7 = fun i => ((r5 i : ℝ) : EReal))
    (hτ : ∀ v, ∀ e ∈ edgesInto a1 v, dstOf a1 e = v)
    (hd : ∃ r : S50000.Idx → ℝ, dinv a1 = fun i => ((r i : ℝ) : EReal)) :
    (∑ k : Fin 128, (((0 : EReal) + ∑ e ∈ edgesInto a1 v,
        max (((0 : EReal) + ∑ e' ∈ edgesInto a1 (srcOf a1 e),
              (∑ k' : Fin 128, a0 (ix2 (srcOf a1 e') k') * a2 (ix2 k' k)) * dinv a1 (ix1 (srcOf a1 e')))
            * dinv a1 (ix1 (srcOf a1 e)) + a3 (ix1 k)) 0 * dinv a1 (ix1 (srcOf a1 e)))
        * dinv a1 (ix1 v)) * a6 (ix2 k g)) + a7 (ix1 g)
      = val_main_v80 (F := Ideal) a0 a1 a2 a3 a6 a7 (ix2 v g) := by
  rw [sigma_at]
  simp only [hidden_at, layer1_at]
  obtain ⟨r0, rfl⟩ := h0
  obtain ⟨r2, rfl⟩ := h2
  obtain ⟨r3, rfl⟩ := h3
  obtain ⟨r4, rfl⟩ := h6
  obtain ⟨r5, rfl⟩ := h7
  obtain ⟨d, hd'⟩ := hd
  simp only [hd']
  exact Cert.GcnAlgebra.two_layer_unfolded (edgesInto a1) (srcOf a1) (dstOf a1) (fun u k' => r0 (ix2 u k'))
    (fun k' k => r2 (ix2 k' k)) (fun k => r3 (ix1 k)) (fun u => d (ix1 u)) (fun k => r4 (ix2 k g)) (r5 (ix1 g)) hτ v

/-! ### With the two facts about the reference's named stages supplied -/

theorem mu_expanded (v : Fin 50000) (g : Fin 64)
    (h0 : ∃ r0 : S50000x128.Idx → ℝ, a0 = fun i => ((r0 i : ℝ) : EReal))
    (h2 : ∃ r2 : S128x128.Idx → ℝ, a2 = fun i => ((r2 i : ℝ) : EReal))
    (h3 : ∃ r3 : S128.Idx → ℝ, a3 = fun i => ((r3 i : ℝ) : EReal))
    (h4 : ∃ r4 : S128x64.Idx → ℝ, a4 = fun i => ((r4 i : ℝ) : EReal))
    (h5 : ∃ r5 : S64.Idx → ℝ, a5 = fun i => ((r5 i : ℝ) : EReal)) :
    (∑ k : Fin 128, (((0 : EReal) + ∑ e ∈ edgesInto a1 v,
        max (((0 : EReal) + ∑ e' ∈ edgesInto a1 (srcOf a1 e),
              (∑ k' : Fin 128, a0 (ix2 (srcOf a1 e') k') * a2 (ix2 k' k)) * dinv a1 (ix1 (srcOf a1 e')))
            * dinv a1 (ix1 (srcOf a1 e)) + a3 (ix1 k)) 0 * dinv a1 (ix1 (srcOf a1 e)))
        * dinv a1 (ix1 v)) * a4 (ix2 k g)) + a5 (ix1 g)
      = val_main_v63 (F := Ideal) a0 a1 a2 a3 a4 a5 (ix2 v g) :=
  mu_expanded_of a0 a1 a2 a3 a4 a5 v g h0 h2 h3 h4 h5 (dstOf_edgesInto a1) (dinv_real a1)

theorem sigma_expanded (v : Fin 50000) (g : Fin 64)
    (h0 : ∃ r0 : S50000x128.Idx → ℝ, a0 = fun i => ((r0 i : ℝ) : EReal))
    (h2 : ∃ r2 : S128x128.Idx → ℝ, a2 = fun i => ((r2 i : ℝ) : EReal))
    (h3 : ∃ r3 : S128.Idx → ℝ, a3 = fun i => ((r3 i : ℝ) : EReal))
    (h6 : ∃ r4 : S128x64.Idx → ℝ, a6 = fun i => ((r4 i : ℝ) : EReal))
    (h7 : ∃ r5 : S64.Idx → ℝ, a7 = fun i => ((r5 i : ℝ) : EReal)) :
    (∑ k : Fin 128, (((0 : EReal) + ∑ e ∈ edgesInto a1 v,
        max (((0 : EReal) + ∑ e' ∈ edgesInto a1 (srcOf a1 e),
              (∑ k' : Fin 128, a0 (ix2 (srcOf a1 e') k') * a2 (ix2 k' k)) * dinv a1 (ix1 (srcOf a1 e')))
            * dinv a1 (ix1 (srcOf a1 e)) + a3 (ix1 k)) 0 * dinv a1 (ix1 (srcOf a1 e)))
        * dinv a1 (ix1 v)) * a6 (ix2 k g)) + a7 (ix1 g)
      = val_main_v80 (F := Ideal) a0 a1 a2 a3 a6 a7 (ix2 v g) :=
  sigma_expanded_of a0 a1 a2 a3 a6 a7 v g h0 h2 h3 h6 h7 (dstOf_edgesInto a1) (dinv_real a1)

end Cert.Bridge

end
-- ==== Proof.Bridge.lean ====
/-
  The kernel's two results are the reference's two results, as whole arrays, when every float argument is real-valued:
  index by index, the kernel's value is the two-layer formula with the scale applied before and after each aggregation,
  the reference's value is the formula with the scale applied to each message, and the two formulas agree on real numbers.
-/
import proofs.«142467_j24335284699606_2_alg».proof.Proof.KernelIndex
import proofs.«142467_j24335284699606_2_alg».proof.Proof.BridgeRef
import Idealize.ShloMosaic.Lib.ValueIdx

noncomputable section

open Idealize.ShloMosaic Idealize.ShloMosaic.ValueIdx

namespace Cert.Bridge

open Cert.KernelIdeal Cert.KernelIdeal.Facts₀

theorem mu_eq (a0 : S50000x128.Idx → EReal) (a1 : IVec S2x800000 32) (a2 : S128x128.Idx → EReal) (a3 : S128.Idx → EReal)
    (a4 : S128x64.Idx → EReal) (a5 : S64.Idx → EReal) (a6 : S128x64.Idx → EReal) (a7 : S64.Idx → EReal)
    (h0 : ∃ r0 : S50000x128.Idx → ℝ, a0 = fun i => ((r0 i : ℝ) : EReal))
    (h2 : ∃ r2 : S128x128.Idx → ℝ, a2 = fun i => ((r2 i : ℝ) : EReal))
    (h3 : ∃ r3 : S128.Idx → ℝ, a3 = fun i => ((r3 i : ℝ) : EReal))
    (h4 : ∃ r4 : S128x64.Idx → ℝ, a4 = fun i => ((r4 i : ℝ) : EReal))
    (h5 : ∃ r5 : S64.Idx → ℝ, a5 = fun i => ((r5 i : ℝ) : EReal)) :
    extractStridedSlice S50000x64 ![0, 0] (KV.KOut a0 a1 a2 a3 a4 a5 a6 a7) slices_S50000x128_S50000x64_0_0
      = Cert.ReferenceIdeal.Read.val_main_v63 (F := Ideal) a0 a1 a2 a3 a4 a5 := by
  funext i
  obtain ⟨v, g, rfl⟩ : ∃ (v : Fin 50000) (g : Fin 64), i = ix2 v g := ⟨i 0, i 1, eq_ix2 i⟩
  rw [Cert.KernelIdeal.KIdx.mu_apply_expanded]
  exact mu_expanded a0 a1 a2 a3 a4 a5 v g h0 h2 h3 h4 h5

theorem sigma_eq (a0 : S50000x128.Idx → EReal) (a1 : IVec S2x800000 32) (a2 : S128x128.Idx → EReal) (a3 : S128.Idx → EReal)
    (a4 : S128x64.Idx → EReal) (a5 : S64.Idx → EReal) (a6 : S128x64.Idx → EReal) (a7 : S64.Idx → EReal)
    (h0 : ∃ r0 : S50000x128.Idx → ℝ, a0 = fun i => ((r0 i : ℝ) : EReal))
    (h2 : ∃ r2 : S128x128.Idx → ℝ, a2 = fun i => ((r2 i : ℝ) : EReal))
    (h3 : ∃ r3 : S128.Idx → ℝ, a3 = fun i => ((r3 i : ℝ) : EReal))
    (h6 : ∃ r6 : S128x64.Idx → ℝ, a6 = fun i => ((r6 i : ℝ) : EReal))
    (h7 : ∃ r7 : S64.Idx → ℝ, a7 = fun i => ((r7 i : ℝ) : EReal)) :
    extractStridedSlice S50000x64 ![0, 64] (KV.KOut a0 a1 a2 a3 a4 a5 a6 a7) slices_S50000x128_S50000x64_0_64
      = Cert.ReferenceIdeal.Read.val_main_v80 (F := Ideal) a0 a1 a2 a3 a6 a7 := by
  funext i
  obtain ⟨v, g, rfl⟩ : ∃ (v : Fin 50000) (g : Fin 64), i = ix2 v g := ⟨i 0, i 1, eq_ix2 i⟩
  rw [Cert.KernelIdeal.KIdx.sigma_apply_expanded]
  exact sigma_expanded a0 a1 a2 a3 a6 a7 v g h0 h2 h3 h6 h7

end Cert.Bridge

end
-- ==== Proof.lean ====
/-
  Two graph-convolution layers with a shared hidden state and two output heads, computed two ways.
  Both programs build the edge list with self-loops, the in-degree of each node and the per-node scale
  s[v] = rsqrt(max(deg v, 1)). The reference sends along every edge e the transformed source row times s[src e] · s[dst e]
  and adds the messages that land on a node; the kernel scales each row by s before the aggregation and each aggregated
  row by s after it, aggregates the hidden state once for both heads, and multiplies by the two head weights side by side.
  On real numbers the two agree: a message is only ever added into the row its own destination names, so the factor
  s[dst e] is the constant s[v] on the sum for node v and moves out of it, and a finite sum of rows passes through a matrix
  product. These laws fail at infinities, so the proof uses that every float argument is finite (the precondition), that
  the scale is a positive real, and carries every intermediate value as a real number.
  The frames of the two kernels are the generated ones; the reference's frame is its generated run with the results
  dropped; the idealization rewrote nothing. The algebraic claim puts the kernel's run, with each result read through the
  fold of its host stretches and its three grid regions, beside the reference's run read stage by stage.
-/
import proofs.«142467_j24335284699606_2_alg».proof.Defs
import proofs.«142467_j24335284699606_2_alg».proof.Proof.Gen.Kernel
import proofs.«142467_j24335284699606_2_alg».proof.Proof.Gen.Kernel.Skeleton
import proofs.«142467_j24335284699606_2_alg».proof.Proof.Gen.Kernel.Launch
import proofs.«142467_j24335284699606_2_alg».proof.Proof.Gen.Kernel.Points
import proofs.«142467_j24335284699606_2_alg».proof.Proof.Gen.Kernel.Frame
import proofs.«142467_j24335284699606_2_alg».proof.Proof.Gen.KernelIdeal
import proofs.«142467_j24335284699606_2_alg».proof.Proof.Gen.KernelIdeal.Skeleton
import proofs.«142467_j24335284699606_2_alg».proof.Proof.Gen.KernelIdeal.Launch
import proofs.«142467_j24335284699606_2_alg».proof.Proof.Gen.KernelIdeal.Points
import proofs.«142467_j24335284699606_2_alg».proof.Proof.Gen.KernelIdeal.Frame
import proofs.«142467_j24335284699606_2_alg».proof.Proof.Gen.ReferenceIdeal
import proofs.«142467_j24335284699606_2_alg».proof.Proof.Gen.Pre_finite_inputs
import proofs.«142467_j24335284699606_2_alg».proof.Proof.Gen.ReferenceIdeal.Run
import proofs.«142467_j24335284699606_2_alg».proof.Proof.Gen.ReferenceIdeal.Read
import proofs.«142467_j24335284699606_2_alg».proof.Proof.KernelRun
import proofs.«142467_j24335284699606_2_alg».proof.Proof.KernelValue
import proofs.«142467_j24335284699606_2_alg».proof.Proof.FiniteInputs
import proofs.«142467_j24335284699606_2_alg».proof.Proof.Bridge
import Idealize.ShloMosaic.Adequacy
import Idealize.ShloMosaic.Init

noncomputable section

namespace Cert.Proof

open Idealize.ShloMosaic Idealize.SL.Sem

/-- Both idealized programs, from memories that agree on the arguments, end with the same two results. -/
theorem algebraic : Cert.algebraic_KernelIdeal_ReferenceIdeal := by
  intro m ρ m' ρ' hpre hagree
  refine ⟨fun c => Idealize.ShloMosaic.extractStridedSlice Cert.KernelIdeal.S50000x64 ![0, 0]
      (Cert.KernelIdeal.KV.KOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      Cert.KernelIdeal.Facts₀.slices_S50000x128_S50000x64_0_0,
    fun c => Idealize.ShloMosaic.extractStridedSlice Cert.KernelIdeal.S50000x64 ![0, 64]
      (Cert.KernelIdeal.KV.KOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      Cert.KernelIdeal.Facts₀.slices_S50000x128_S50000x64_0_64, ?_, ?_⟩
  · refine (θ_run Cert.KernelIdeal.defs _ _).mono (fun r h c => ?_) (Cert.KernelIdeal.Gen.run_values (F := Ideal) m ρ)
    obtain ⟨h42, h43, hargs⟩ := h c
    exact ⟨h42.trans (Cert.KernelIdeal.KV.W7_v42 m ρ c), h43.trans (Cert.KernelIdeal.KV.W7_v43 m ρ c), hargs⟩
  · refine (θ_run Cert.ReferenceIdeal.defs _ _).mono (fun r h c => ?_) (Cert.ReferenceIdeal.Value.run (F := Ideal) m' ρ')
    obtain ⟨h63, h80, hargs⟩ := h c
    obtain ⟨e0, e1, e2, e3, e4, e5, e6, e7⟩ := hagree c
    obtain ⟨r0, r2, r3, r4, r5, r6, r7⟩ := Cert.FiniteInputs.real_arrays_of_pre m hpre c
    refine ⟨h63.trans ?_, h80.trans ?_, hargs⟩
    · rw [Cert.ReferenceIdeal.Read.val_main_v63_eq, e0, e1, e2, e3, e4, e5]
      exact (Cert.Bridge.mu_eq _ _ _ _ _ _ _ _ r0 r2 r3 r4 r5).symm
    · rw [Cert.ReferenceIdeal.Read.val_main_v80_eq, e0, e1, e2, e3, e6, e7]
      exact (Cert.Bridge.sigma_eq _ _ _ _ _ _ _ _ r0 r2 r3 r6 r7).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
